-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2048 : Shape := ⟨1, ![2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : IVec S2048 32) (main_arg2 : IVec S2048 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S2048 : Shape := ⟨1, ![2048]⟩
abbrev S_ : Shape := ⟨0, ![]⟩
abbrev S2048x1 : Shape := ⟨2, ![2048, 1]⟩
abbrev S2048x4096 : Shape := ⟨2, ![2048, 4096]⟩
abbrev S1x2048 : Shape := ⟨2, ![1, 2048]⟩
abbrev S256x4096 : Shape := ⟨2, ![256, 4096]⟩
abbrev S256x1 : Shape := ⟨2, ![256, 1]⟩
abbrev S256 : Shape := ⟨1, ![256]⟩
abbrev S1x256 : Shape := ⟨2, ![1, 256]⟩
abbrev S256x256 : Shape := ⟨2, ![256, 256]⟩

abbrev nBuf : Space → Nat
  | .hbm => 22
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x4096, .f32⟩
  | .hbm, ⟨12, _⟩ => ⟨S2048x1, .i32⟩
  | .hbm, ⟨13, _⟩ => ⟨S1x2048, .i32⟩
  | .hbm, ⟨14, _⟩ => ⟨S2048x4096, .bf16⟩
  | .hbm, ⟨15, _⟩ => ⟨S2048x1, .f32⟩
  | .hbm, ⟨16, _⟩ => ⟨S1x2048, .f32⟩
  | .hbm, ⟨17, _⟩ => ⟨S2048x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S2048x4096, .bf16⟩
  | .local _ .vmem, ⟨7, _⟩ => ⟨S256x1, .f32⟩
  | .local _ .vmem, ⟨8, _⟩ => ⟨S256x1, .f32⟩
  | .local _ .vmem, ⟨9, _⟩ => ⟨S1x256, .f32⟩
  | .local _ .vmem, ⟨10, _⟩ => ⟨S1x256, .f32⟩
  | .local _ .vmem, ⟨11, _⟩ => ⟨S256x1, .i32⟩
  | .local _ .vmem, ⟨12, _⟩ => ⟨S256x1, .i32⟩
  | .local _ .vmem, ⟨13, _⟩ => ⟨S1x256, .i32⟩
  | .local _ .vmem, ⟨14, _⟩ => ⟨S1x256, .i32⟩
  | .local _ .vmem, ⟨15, _⟩ => ⟨S256x1, .f32⟩
  | .local _ .vmem, ⟨16, _⟩ => ⟨S256x1, .f32⟩
  | .local _ .vmem, ⟨17, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_mult2 (i : grid1.Coords) : BitVec 32 :=
  let arg1 : BitVec 32 := BitVec.ofNat 32 (i 1).val
  let c256_i32_1 : BitVec 32 := 256#32
  let v5 : BitVec 32 := Scalar.muli arg1 c256_i32_1
  v5
def k1_off1 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0 : Index := 0#32
  ![v7.toNat, 0]
def k1_off2 (i : grid1.Coords) : Fin 2 → Nat :=
  let arg1 : BitVec 32 := BitVec.ofNat 32 (i 1).val
  let c256_i32_1 : BitVec 32 := 256#32
  let v5 : BitVec 32 := Scalar.muli arg1 c256_i32_1
  let v6 : BitVec 32 := v5
  let v10 : Index := Scalar.indexCast v6
  let c0_2 : Index := 0#32
  ![v10.toNat, 0]
def k1_cond2 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_19 : BitVec 32 := 0#32
  let v52 : BitVec 1 := Scalar.cmpi .ne v51 c0_i32_19
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S2048x1 : S2048.ShapeCasts S2048x1
  transposes_S2048x1_S1x2048_1_0 : S2048x1.Transposes [1, 0] S1x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  natLt_1_32 : 1 < 32
  reduces_S256x256_S256 : S256x256.Reduces [1] S256
  reducesTo_S2048x1_S_d0_1 : S2048x1.ReducesTo [0, 1] S_
  h_S_ : 0 < S_.numel
  gather_S4096x4096_S2048x1_S2048x4096_1_0_n_n_0_1_14096_wf : GatherDims.WF S4096x4096 S2048x1 S2048x4096 [1] [0] [] [0] [] 1 ![1, 4096]
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  k1_mult1_dvd : ∀ i : grid1.Coords, 256 ∣ (k1_mult1 i).toNat
  k1_mult2_dvd : ∀ i : grid1.Coords, 256 ∣ (k1_mult2 i).toNat
  k1_off1_inb : ∀ i : grid1.Coords, ∀ a, (k1_off1 i) a + S256x4096.size a ≤ S2048x4096.size a
  k1_off2_inb : ∀ i : grid1.Coords, ∀ a, (k1_off2 i) a + S256x4096.size a ≤ S2048x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S2048x1.size a
  hwx1_1 : ∀ i : grid1.Coords, EltTy.bits .f32 = 32 ∨ (Rect.block (s := S2048x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S2048x1.size a
  hwx1_3 : ∀ i : grid1.Coords, EltTy.bits .i32 = 32 ∨ (Rect.block (s := S2048x1) S256x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x2048.size a
  hwx1_4 : ∀ i : grid1.Coords, EltTy.bits .i32 = 32 ∨ (Rect.block (s := S1x2048) S1x256.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S2048x1.size a
  hwx1_5 : ∀ i : grid1.Coords, EltTy.bits .f32 = 32 ∨ (Rect.block (s := S2048x1) S256x1.size (cc1_transform_5 i) (hinb1_5 i)).WholeWords (EltTy.packing .f32)

variable [Facts₀]

def gather_S4096x4096_S2048x1_S2048x4096_1_0_n_n_0_1_14096 : GatherDims S4096x4096 S2048x1 S2048x4096 where
  offsetDims := [1]
  collapsedSliceDims := [0]
  operandBatchingDims := []
  startIndicesBatchingDims := []
  startIndexMap := [0]
  indexVectorDim := 1
  sliceSizes := ![1, 4096]
  wf := gather_S4096x4096_S2048x1_S2048x4096_1_0_n_n_0_1_14096_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v6) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9_0) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S2048 : Shape := ⟨1, ![2048]⟩
abbrev S_ : Shape := ⟨0, ![]⟩
abbrev S2048x1 : Shape := ⟨2, ![2048, 1]⟩
abbrev S2048x4096 : Shape := ⟨2, ![2048, 4096]⟩
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S4096x2048, .f32⟩
  | .hbm, ⟨17, _⟩ => ⟨S2048x2048, .f32⟩
  | .hbm, ⟨18, _⟩ => ⟨S2048x1, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x1, .i32⟩
  | .hbm, ⟨28, _⟩ => ⟨S1x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  reducesTo_S2048x4096_S2048_d1 : S2048x4096.ReducesTo [1] S2048
  h_S_ : 0 < S_.numel
  transposes_S2048x4096_S4096x2048_1_0 : S2048x4096.Transposes [1, 0] S4096x2048
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S_d0_1 : S2048x2048.ReducesTo [0, 1] S_
  gather_S4096x4096_S2048x1_S2048x4096_1_0_n_n_0_1_14096_wf : GatherDims.WF S4096x4096 S2048x1 S2048x4096 [1] [0] [] [0] [] 1 ![1, 4096]
  dot_S2048x4096_S4096x2048_S2048x2048_1_0_0_1_n_n_wf : DotDims.WF S2048x4096 S4096x2048 S2048x2048 [1] [0] [0] [1] [] []

variable [Facts₀]

def gather_S4096x4096_S2048x1_S2048x4096_1_0_n_n_0_1_14096 : GatherDims S4096x4096 S2048x1 S2048x4096 where
  offsetDims := [1]
  collapsedSliceDims := [0]
  operandBatchingDims := []
  startIndicesBatchingDims := []
  startIndexMap := [0]
  indexVectorDim := 1
  sliceSizes := ![1, 4096]
  wf := gather_S4096x4096_S2048x1_S2048x4096_1_0_n_n_0_1_14096_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.K.Region0.lean ====
/-
  The first launch (row norms and the change of format), on core `c`, at any contents `V` of the
  TensorCore's buffers when it is entered. Its grid has 8 points; point `t` reads rows 256·t … 256·t+255 of the gathered
  matrix (window 0), and writes the same rows of the narrowed copy (window 1) and of the column of row norms
  (window 2). The body reads nothing it wrote at an earlier point, so what each output's staging buffer holds after the
  body is one function of the point's input block: the body's stores, last first, over its payloads.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point: it is fetched at every point, never cut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: the whole 256×4096 block and the whole 256×1 column -/

abbrev r0_x : Rect S256x4096 := Rect.unit (s := S256x4096) ![0, 0] S256x4096.size inb_S256x4096_S256x4096_0_0
abbrev r0_n : Rect S256x1 := Rect.unit (s := S256x1) ![0, 0] S256x1.size inb_S256x1_S256x1_0_0

/-! ## What the body leaves in each output's staging buffer -/

/-- The narrowed block: one store of the whole block, the input block changed of format. -/
def out0_1 (x0 : Vec F S256x4096 .f32) : Vec F S256x4096 .bf16 :=
  View.canon [⟨r0_x, k0_pay3 (View.ld x0 r0_x)⟩]

/-- The block's row norms: one store of the whole column, the square root of each row's sum of squares. -/
def out0_2 (x0 : Vec F S256x4096 .f32) : Vec F S256x1 .f32 :=
  View.canon [⟨r0_n, k0_pay2 (View.ld x0 r0_x)⟩]

/-- One store of the whole block covers it. -/
theorem cover0_1 (p0 : Vec F S256x4096 .bf16) (y : S256x4096.Idx) :
    ∃ pc ∈ ([⟨r0_x, p0⟩] : List (View.Piece (Elt F) S256x4096 .bf16)), y ∈ pc.1.set :=
  View.cover_of_tiled [⟨r0_x, p0⟩] S256x4096.size (by rfl) y

/-- One store of the whole column covers it. -/
theorem cover0_2 (p0 : Vec F S256x1 .f32) (y : S256x1.Idx) :
    ∃ pc ∈ ([⟨r0_n, p0⟩] : List (View.Piece (Elt F) S256x1 .f32)), y ∈ pc.1.set :=
  View.cover_of_tiled [⟨r0_n, p0⟩] S256x1.size (by rfl) y

/-! ## The body's triple -/

set_option maxHeartbeats 1000000 in
/-- On whole staging memrefs — the input's at contents `x0`, the outputs' at anything — the body runs to the
    continuation holding the input's as it was and each output's at its function of `x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norms_cast_kernel i arg1 harg1 arg2 harg2 arg3 harg3) K := by
  simp only [cc0__norms_cast_kernel_eq_skeleton]; unfold cc0__norms_cast_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The launch's proof data -/

/-- The arrays as the launch finds them; after the body at point `t` the input's buffer at its block and each output's
    at its function of that block; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Base.lean ====
/-
  The second launch (the Gram product, the loss entries and their row sums), on core `c`, at any contents `V` of the
  TensorCore's buffers when it is entered: what its three control cases share. The grid is 8 × 8, point
  `t = 8·i + j`. The body resets its 256×1 accumulator where `j = 0`, adds tile `(i, j)`'s row sums to it at every
  point, and copies it to the output block where `j = 7`; at the other points the output window is idle and is not
  written back. Case A is `j = 0`, case B is `0 < j < 7`, case C is `j = 7`.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it is not
    fetched its block index has not moved. None is cut, none is ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- `j = 0`, as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `j = 7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where `j ≠ 7` the output window is idle and its block is not written back; where `j = 7` it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S256x1 .f32 := (Memref.whole cc1_stg5_0 : Memref sig .tc .vmem S256x1 .f32).view
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S256x1 .f32 := Memref.whole cc1_scratch0
abbrev VS1_0 : View sig .tc .vmem S256x1 .f32 := scM1_0.view

/-! ## The scoped buffers the launch does not stage -/

/-- The first launch's six staging buffers, each whole at some contents: the second launch never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant is those six, the accumulator at some contents, and the generator register at some state. -/
theorem PhiA1_split (c : Dev nD) :
    (Pipeline.ΦA spec1 c : sProp 𝕄) ⊢ iprop(others1 c ∗ (∃ d, owns (c : Thread nD τ) scM1_0 fullShare d) ∗ (∃ r, prngReg c r)) := by
  unfold Pipeline.ΦA others1; rw [scopedRest1_eq]; simp only [scM1_0, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

theorem PhiA1_join (c : Dev nD) :
    iprop(others1 c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H1, H2, H3, H4, H5, H6⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Hand

end
-- ==== Proof.K.R1RunA.lean ====
/-
  The second launch's body in case A (`j = 0`: the accumulator is reset, the output untouched): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import proofs.«102577_j3977139716295_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
noncomputable def kernelRun1_A (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) :
    Σ' (L5 : List (View.Piece (Elt F) S256x1 .f32)), { LS0 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨[], ?_, fun xi5 E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1RunB.lean ====
/-
  The second launch's body in case B (`0 < j < 7`: the accumulator carried on, the output untouched): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import proofs.«102577_j3977139716295_2_alg».proof.Proof.K.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
noncomputable def kernelRun1_B (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) :
    Σ' (L5 : List (View.Piece (Elt F) S256x1 .f32)), { LS0 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨[], ?_, fun xi5 E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1RunC.lean ====
/-
  The second launch's body in case C (`j = 7`: the accumulator carried on and copied to the output): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import proofs.«102577_j3977139716295_2_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
noncomputable def kernelRun1_C (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) :
    Σ' (L5 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨?_, ?_, fun E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Region1.lean ====
/-
  The second launch, on core `c`, at any contents `V` of the TensorCore's buffers when it is entered: what its output's
  staging buffer and its accumulator hold after each grid point, the invariant that carries the accumulator from one point
  to the next, and the body obligation. Point `t = 8·i + j`: where `j = 0` the accumulator is reset and tile `(i, 0)`'s
  row sums are added; where `j > 0` tile `(i, j)`'s row sums are added to what point `t - 1` left; where `j = 7` the
  accumulator is also copied to the output's buffer, the only points at which that window is written back.
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import proofs.«102577_j3977139716295_2_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output's buffer: a placeholder nothing consults (the window is idle there). -/
def out1_A_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) : Vec F S256x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores into the accumulator cover it. -/
theorem scover1_A_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) (y : S256x1.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x1.size (by sl_kernel_rfl) y

/-- What case A leaves in the accumulator. -/
def sout1_A_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) : Vec F S256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output's buffer either. -/
def out1_B_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

theorem scover1_B_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S256x1.size (by sl_kernel_rfl) y

/-- What case B leaves in the accumulator. -/
def sout1_B_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's one store into the output's buffer covers it. -/
theorem cover1_C_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S256x1.size (by sl_kernel_rfl) y

/-- What case C leaves in the output's buffer. -/
def out1_C_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S256x1.size (by sl_kernel_rfl) y

/-- What case C leaves in the accumulator. -/
def sout1_C_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output's buffer and the accumulator hold after each point -/

/-- The accumulation, by recursion on the position: the case its residue mod 8 selects, run at the point's memrefs and
    input blocks, the accumulator found at what position `n - 1` left (cases B and C). -/
def outsAt1 (c : Dev nD) : (n : ℕ) → n < cfg1.N → Vec F S256x1 .f32 × Vec F S256x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point the class's invariant (the accumulator at anything); afterwards the first
    launch's staging buffers at anything, the accumulator at what position `n - 1` left, the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare ((outsAt1 V c (n - 1) (by omega)).2) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the residue of the position mod 8 says which case the
    point is in; the invariant hands the body the accumulator at what the point before left (at anything at the first
    point) and takes it back at this point's contents; the first launch's buffers, the generator register and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz]
      iintro ⟨Hphi, Ho, ⟨%d0, H0⟩, ⟨%d1, H1⟩, ⟨%d2, H2⟩, ⟨%d3, H3⟩, ⟨%d4, H4⟩, ⟨%d5, H5⟩⟩
      ihave Hphi2 := (PhiA1_split c) $$ Hphi
      icases Hphi2 with ⟨Hoth, HS0, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨Hoth, HS0, Hg⟩
  iapply (PhiA1_join c)
  isplitl [Hoth]; · iexact Hoth
  isplitl [HS0]; · iexists _; iexact HS0
  iexact Hg

end Cert.Kernel.Hand

end
-- ==== Proof.K.Run.lean ====
/-
  The run of the program as five segments, on every core: a stretch of host operations (the index arithmetic, the
  gather of the rows and the change of layout of the labels), the first launch (row norms and the narrowed copy), a
  stretch (the transpose of the norms), the second launch (the per-row losses) and a last stretch (the sum of the losses
  and its division by the number of entries). The buffer contents at every boundary are a fold from the launch memory:
  a stretch's result is the fold of its operations over what it was entered with; a launch leaves its windows' arrays
  at what its write-backs fold to and every other buffer as entered. The thread state between segments is "every
  unscoped buffer at the boundary's contents, the generator register at some state, nothing owed".
-/
import proofs.«102577_j3977139716295_2_alg».proof.Proof.Gen.Kernel.Launch
import proofs.«102577_j3977139716295_2_alg».proof.Proof.Gen.Kernel.Skeleton
import proofs.«102577_j3977139716295_2_alg».proof.Proof.Gen.Kernel.Points
import proofs.«102577_j3977139716295_2_alg».proof.Proof.K.Region0
import proofs.«102577_j3977139716295_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
/-- The same read at the TensorCore's references (what the first launch's proof data take). -/
abbrev V1 : (c : Dev nD) → (b : Ref sig .tc) → Buf (Elt F) ((c : Thread nD τ).loc b) := fun c b => W1 m ρ c b
/-- At the first launch's exit: its arrays at what the pipeline leaves (the input as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first launch's exit contents). -/
abbrev V2 : (c : Dev nD) → (b : Ref sig .tc) → Buf (Elt F) ((c : Thread nD τ).loc b) := fun c b => W2 m ρ c b
/-- At the first launch's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second launch's entry). -/
abbrev W3 : Dev nD → Valuation τ sig (Elt F) := fun c => StableHlo.after hostOps1 (W2 m ρ c)
/-- The same read at the TensorCore's references (what the second launch's proof data take). -/
abbrev V3 : (c : Dev nD) → (b : Ref sig .tc) → Buf (Elt F) ((c : Thread nD τ).loc b) := fun c b => W3 m ρ c b
/-- At the second launch's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second launch's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (what the program returns from). -/
abbrev W5 : Dev nD → Valuation τ sig (Elt F) := fun c => StableHlo.after hostOps2 (W4 m ρ c)

/-! ### The arguments end as launched: no host operation writes one and neither launch has one among its windows, so
    the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it ends with those references at the fold of the operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments

Each is entered from every unscoped buffer at its entry contents and left at its exit contents: its arrays split out
of the unscoped buffers and put back at what the pipeline leaves; the generator register goes into the launch's
invariant and comes out; nothing is owed; the kernel has no semaphore of its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact (show _ ⊢ Pipeline.ΦA spec1 c from by
      unfold Pipeline.ΦA
      iintro ⟨Hp, -, Hr⟩
      isplitl [Hr]; · iexact Hr
      iexact Hp).trans (hin1 (V3 m ρ) c)
  hout c := by
    rw [Pipeline.ownSems0_none, show (pdats m ρ 1 c).Φ (Fin.last _) = (dat1 (V3 m ρ) c).Φ (Fin.last cfg1.N) from rfl]
    exact (hout1 (V3 m ρ) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments: it is the chain of its items, and the segments' run is that chain. -/
theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and every final state has every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last stretch ends at the buffers beside the register and the debts: regrouped as the last thread state
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame claim: every weakly fair execution of the program on the TensorCores terminates, nothing faulting, and
    every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-! ## What the host stretches after the launches leave -/

/-- The program's result: the second launch's column of per-row losses, summed from zero and divided by the constant. -/
theorem W5_main_v13 (c : Dev nD) : W5 m ρ c (Proc.devRef .tc main_v13)
    = Host.divf (Host.reduceAdd (W4 m ρ c (Proc.devRef .tc main_v11)) (constant (F := F) S_ .f32 0x00000000#32) reducesTo_S2048x1_S_d0_1 h_S_)
        (constant (F := F) S_ .f32 0x4A800000#32) := by
  dsimp only [W5]
  after_results

/-- The second launch's row of norms: the first launch's column of norms, transposed. -/
theorem W3_main_v10 (c : Dev nD) : W3 m ρ c (Proc.devRef .tc main_v10)
    = transpose S1x2048 [1, 0] (W2 m ρ c (Proc.devRef .tc main_v9_1)) transposes_S2048x1_S1x2048_1_0 := by
  dsimp only [W3]
  after_results

/-! ## What the first stretch of host operations leaves -/

/-- The labels as a column: the third argument's reshape. -/
theorem W1_main_v7 (c : Dev nD) : W1 m ρ c (Proc.devRef .tc main_v7)
    = shapeCast S2048x1 (m ((c : Thread nD τ).loc main_arg2)) shapeCasts_S2048_S2048x1 := by
  dsimp only [W1]
  after_results
  rfl

/-- The labels as a row: that column, transposed. -/
theorem W1_main_v8 (c : Dev nD) : W1 m ρ c (Proc.devRef .tc main_v8)
    = transpose S1x2048 [1, 0] (shapeCast S2048x1 (m ((c : Thread nD τ).loc main_arg2)) shapeCasts_S2048_S2048x1)
        transposes_S2048x1_S1x2048_1_0 := by
  dsimp only [W1]
  after_results
  rfl

/-- The gathered rows: the first argument's rows at the second argument's indices, a negative index counted from the
    end. -/
theorem W1_main_v6 (c : Dev nD) : W1 m ρ c (Proc.devRef .tc main_v6)
    = Host.gather gather_S4096x4096_S2048x1_S2048x4096_1_0_n_n_0_1_14096 (m ((c : Thread nD τ).loc main_arg0))
        (broadcastInDim S2048x1 ![0] bcast_S2048_S2048x1_0
          (select
            (cmpi .slt (m ((c : Thread nD τ).loc main_arg1)) (broadcastInDim S2048 ![] bcast_S_S2048 (constantI S_ 32 0#32)))
            (addi (m ((c : Thread nD τ).loc main_arg1)) (broadcastInDim S2048 ![] bcast_S_S2048 (constantI S_ 32 4096#32)))
            (m ((c : Thread nD τ).loc main_arg1)))) := by
  dsimp only [W1]
  after_results

end Cert.Kernel.Hand

end
-- ==== Proof.KI.Region0.lean ====
/-
  The first launch (row norms and the change of format), on core `c`, at any contents `V` of the
  TensorCore's buffers when it is entered. Its grid has 8 points; point `t` reads rows 256·t … 256·t+255 of the gathered
  matrix (window 0), and writes the same rows of the narrowed copy (window 1) and of the column of row norms
  (window 2). The body reads nothing it wrote at an earlier point, so what each output's staging buffer holds after the
  body is one function of the point's input block: the body's stores, last first, over its payloads.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point: it is fetched at every point, never cut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: the whole 256×4096 block and the whole 256×1 column -/

abbrev r0_x : Rect S256x4096 := Rect.unit (s := S256x4096) ![0, 0] S256x4096.size inb_S256x4096_S256x4096_0_0
abbrev r0_n : Rect S256x1 := Rect.unit (s := S256x1) ![0, 0] S256x1.size inb_S256x1_S256x1_0_0

/-! ## What the body leaves in each output's staging buffer -/

/-- The narrowed block: one store of the whole block, the input block changed of format. -/
def out0_1 (x0 : Vec F S256x4096 .f32) : Vec F S256x4096 .bf16 :=
  View.canon [⟨r0_x, k0_pay3 (View.ld x0 r0_x)⟩]

/-- The block's row norms: one store of the whole column, the square root of each row's sum of squares. -/
def out0_2 (x0 : Vec F S256x4096 .f32) : Vec F S256x1 .f32 :=
  View.canon [⟨r0_n, k0_pay2 (View.ld x0 r0_x)⟩]

/-- One store of the whole block covers it. -/
theorem cover0_1 (p0 : Vec F S256x4096 .bf16) (y : S256x4096.Idx) :
    ∃ pc ∈ ([⟨r0_x, p0⟩] : List (View.Piece (Elt F) S256x4096 .bf16)), y ∈ pc.1.set :=
  View.cover_of_tiled [⟨r0_x, p0⟩] S256x4096.size (by rfl) y

/-- One store of the whole column covers it. -/
theorem cover0_2 (p0 : Vec F S256x1 .f32) (y : S256x1.Idx) :
    ∃ pc ∈ ([⟨r0_n, p0⟩] : List (View.Piece (Elt F) S256x1 .f32)), y ∈ pc.1.set :=
  View.cover_of_tiled [⟨r0_n, p0⟩] S256x1.size (by rfl) y

/-! ## The body's triple -/

set_option maxHeartbeats 1000000 in
/-- On whole staging memrefs — the input's at contents `x0`, the outputs' at anything — the body runs to the
    continuation holding the input's as it was and each output's at its function of `x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norms_cast_kernel i arg1 harg1 arg2 harg2 arg3 harg3) K := by
  simp only [cc0__norms_cast_kernel_eq_skeleton]; unfold cc0__norms_cast_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The launch's proof data -/

/-- The arrays as the launch finds them; after the body at point `t` the input's buffer at its block and each output's
    at its function of that block; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Base.lean ====
/-
  The second launch (the Gram product, the loss entries and their row sums), on core `c`, at any contents `V` of the
  TensorCore's buffers when it is entered: what its three control cases share. The grid is 8 × 8, point
  `t = 8·i + j`. The body resets its 256×1 accumulator where `j = 0`, adds tile `(i, j)`'s row sums to it at every
  point, and copies it to the output block where `j = 7`; at the other points the output window is idle and is not
  written back. Case A is `j = 0`, case B is `0 < j < 7`, case C is `j = 7`.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it is not
    fetched its block index has not moved. None is cut, none is ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- `j = 0`, as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `j = 7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where `j ≠ 7` the output window is idle and its block is not written back; where `j = 7` it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S256x1 .f32 := (Memref.whole cc1_stg5_0 : Memref sig .tc .vmem S256x1 .f32).view
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S256x1 .f32 := Memref.whole cc1_scratch0
abbrev VS1_0 : View sig .tc .vmem S256x1 .f32 := scM1_0.view

/-! ## The scoped buffers the launch does not stage -/

/-- The first launch's six staging buffers, each whole at some contents: the second launch never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant is those six, the accumulator at some contents, and the generator register at some state. -/
theorem PhiA1_split (c : Dev nD) :
    (Pipeline.ΦA spec1 c : sProp 𝕄) ⊢ iprop(others1 c ∗ (∃ d, owns (c : Thread nD τ) scM1_0 fullShare d) ∗ (∃ r, prngReg c r)) := by
  unfold Pipeline.ΦA others1; rw [scopedRest1_eq]; simp only [scM1_0, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

theorem PhiA1_join (c : Dev nD) :
    iprop(others1 c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H1, H2, H3, H4, H5, H6⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Hand

end
-- ==== Proof.KI.R1RunA.lean ====
/-
  The second launch's body in case A (`j = 0`: the accumulator is reset, the output untouched): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
noncomputable def kernelRun1_A (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) :
    Σ' (L5 : List (View.Piece (Elt F) S256x1 .f32)), { LS0 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨[], ?_, fun xi5 E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunB.lean ====
/-
  The second launch's body in case B (`0 < j < 7`: the accumulator carried on, the output untouched): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
noncomputable def kernelRun1_B (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) :
    Σ' (L5 : List (View.Piece (Elt F) S256x1 .f32)), { LS0 : List (View.Piece (Elt F) S256x1 .f32) //
      ∀ (xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨[], ?_, fun xi5 E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunC.lean ====
/-
  The second launch's body in case C (`j = 7`: the accumulator carried on and copied to the output): on whole staging memrefs, the inputs' at their contents, the body runs to
  the continuation holding the inputs' as they were and the accumulator (and, where it stores into it, the output's buffer)
  with the body's stores written, as a list of pieces, last first. The pieces are found by running the body.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
noncomputable def kernelRun1_C (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) :
    Σ' (L5 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gram_bce_kernel i arg2 harg2 arg3 harg3 arg4 harg4 arg5 harg5 arg6 harg6 arg7 harg7 arg8 harg8) K } := by
  refine ⟨?_, ?_, fun E K => ?run⟩
  case run =>
    simp only [cc1__gram_bce_kernel_eq_skeleton]; unfold cc1__gram_bce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Region1.lean ====
/-
  The second launch, on core `c`, at any contents `V` of the TensorCore's buffers when it is entered: what its output's
  staging buffer and its accumulator hold after each grid point, the invariant that carries the accumulator from one point
  to the next, and the body obligation. Point `t = 8·i + j`: where `j = 0` the accumulator is reset and tile `(i, 0)`'s
  row sums are added; where `j > 0` tile `(i, j)`'s row sums are added to what point `t - 1` left; where `j = 7` the
  accumulator is also copied to the output's buffer, the only points at which that window is written back.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output's buffer: a placeholder nothing consults (the window is idle there). -/
def out1_A_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) : Vec F S256x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores into the accumulator cover it. -/
theorem scover1_A_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) (y : S256x1.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x1.size (by sl_kernel_rfl) y

/-- What case A leaves in the accumulator. -/
def sout1_A_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S2048x4096 .bf16) (x1 : Vec F S256x1 .f32) (x2 : Vec F S1x256 .f32) (x3 : Vec F S256x1 .i32) (x4 : Vec F S1x256 .i32) : Vec F S256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output's buffer either. -/
def out1_B_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

theorem scover1_B_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S256x1.size (by sl_kernel_rfl) y

/-- What case B leaves in the accumulator. -/
def sout1_B_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's one store into the output's buffer covers it. -/
theorem cover1_C_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S256x1.size (by sl_kernel_rfl) y

/-- What case C leaves in the output's buffer. -/
def out1_C_5 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) (y : S256x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S256x1.size (by sl_kernel_rfl) y

/-- What case C leaves in the accumulator. -/
def sout1_C_0 (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S2048x4096 .bf16) (x1 : Vec F S256x1 .f32) (x2 : Vec F S1x256 .f32) (x3 : Vec F S256x1 .i32) (x4 : Vec F S1x256 .i32) (xs0 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output's buffer and the accumulator hold after each point -/

/-- The accumulation, by recursion on the position: the case its residue mod 8 selects, run at the point's memrefs and
    input blocks, the accumulator found at what position `n - 1` left (cases B and C). -/
def outsAt1 (c : Dev nD) : (n : ℕ) → n < cfg1.N → Vec F S256x1 .f32 × Vec F S256x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point the class's invariant (the accumulator at anything); afterwards the first
    launch's staging buffers at anything, the accumulator at what position `n - 1` left, the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare ((outsAt1 V c (n - 1) (by omega)).2) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the residue of the position mod 8 says which case the
    point is in; the invariant hands the body the accumulator at what the point before left (at anything at the first
    point) and takes it back at this point's contents; the first launch's buffers, the generator register and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz]
      iintro ⟨Hphi, Ho, ⟨%d0, H0⟩, ⟨%d1, H1⟩, ⟨%d2, H2⟩, ⟨%d3, H3⟩, ⟨%d4, H4⟩, ⟨%d5, H5⟩⟩
      ihave Hphi2 := (PhiA1_split c) $$ Hphi
      icases Hphi2 with ⟨Hoth, HS0, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨Hoth, HS0, Hg⟩
  iapply (PhiA1_join c)
  isplitl [Hoth]; · iexact Hoth
  isplitl [HS0]; · iexists _; iexact HS0
  iexact Hg

end Cert.KernelIdeal.Hand

end
-- ==== Proof.KI.Run.lean ====
/-
  The run of the program as five segments, on every core: a stretch of host operations (the index arithmetic, the
  gather of the rows and the change of layout of the labels), the first launch (row norms and the narrowed copy), a
  stretch (the transpose of the norms), the second launch (the per-row losses) and a last stretch (the sum of the losses
  and its division by the number of entries). The buffer contents at every boundary are a fold from the launch memory:
  a stretch's result is the fold of its operations over what it was entered with; a launch leaves its windows' arrays
  at what its write-backs fold to and every other buffer as entered. The thread state between segments is "every
  unscoped buffer at the boundary's contents, the generator register at some state, nothing owed".
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.Region0
import proofs.«102577_j3977139716295_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
/-- The same read at the TensorCore's references (what the first launch's proof data take). -/
abbrev V1 : (c : Dev nD) → (b : Ref sig .tc) → Buf (Elt F) ((c : Thread nD τ).loc b) := fun c b => W1 m ρ c b
/-- At the first launch's exit: its arrays at what the pipeline leaves (the input as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first launch's exit contents). -/
abbrev V2 : (c : Dev nD) → (b : Ref sig .tc) → Buf (Elt F) ((c : Thread nD τ).loc b) := fun c b => W2 m ρ c b
/-- At the first launch's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second launch's entry). -/
abbrev W3 : Dev nD → Valuation τ sig (Elt F) := fun c => StableHlo.after hostOps1 (W2 m ρ c)
/-- The same read at the TensorCore's references (what the second launch's proof data take). -/
abbrev V3 : (c : Dev nD) → (b : Ref sig .tc) → Buf (Elt F) ((c : Thread nD τ).loc b) := fun c b => W3 m ρ c b
/-- At the second launch's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second launch's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (what the program returns from). -/
abbrev W5 : Dev nD → Valuation τ sig (Elt F) := fun c => StableHlo.after hostOps2 (W4 m ρ c)

/-! ### The arguments end as launched: no host operation writes one and neither launch has one among its windows, so
    the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it ends with those references at the fold of the operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments

Each is entered from every unscoped buffer at its entry contents and left at its exit contents: its arrays split out
of the unscoped buffers and put back at what the pipeline leaves; the generator register goes into the launch's
invariant and comes out; nothing is owed; the kernel has no semaphore of its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact (show _ ⊢ Pipeline.ΦA spec1 c from by
      unfold Pipeline.ΦA
      iintro ⟨Hp, -, Hr⟩
      isplitl [Hr]; · iexact Hr
      iexact Hp).trans (hin1 (V3 m ρ) c)
  hout c := by
    rw [Pipeline.ownSems0_none, show (pdats m ρ 1 c).Φ (Fin.last _) = (dat1 (V3 m ρ) c).Φ (Fin.last cfg1.N) from rfl]
    exact (hout1 (V3 m ρ) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments: it is the chain of its items, and the segments' run is that chain. -/
theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and every final state has every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last stretch ends at the buffers beside the register and the debts: regrouped as the last thread state
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame claim: every weakly fair execution of the program on the TensorCores terminates, nothing faulting, and
    every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-! ## What the host stretches after the launches leave -/

/-- The program's result: the second launch's column of per-row losses, summed from zero and divided by the constant. -/
theorem W5_main_v13 (c : Dev nD) : W5 m ρ c (Proc.devRef .tc main_v13)
    = Host.divf (Host.reduceAdd (W4 m ρ c (Proc.devRef .tc main_v11)) (constant (F := F) S_ .f32 0x00000000#32) reducesTo_S2048x1_S_d0_1 h_S_)
        (constant (F := F) S_ .f32 0x4A800000#32) := by
  dsimp only [W5]
  after_results

/-- The second launch's row of norms: the first launch's column of norms, transposed. -/
theorem W3_main_v10 (c : Dev nD) : W3 m ρ c (Proc.devRef .tc main_v10)
    = transpose S1x2048 [1, 0] (W2 m ρ c (Proc.devRef .tc main_v9_1)) transposes_S2048x1_S1x2048_1_0 := by
  dsimp only [W3]
  after_results

/-! ## What the first stretch of host operations leaves -/

/-- The labels as a column: the third argument's reshape. -/
theorem W1_main_v7 (c : Dev nD) : W1 m ρ c (Proc.devRef .tc main_v7)
    = shapeCast S2048x1 (m ((c : Thread nD τ).loc main_arg2)) shapeCasts_S2048_S2048x1 := by
  dsimp only [W1]
  after_results
  rfl

/-- The labels as a row: that column, transposed. -/
theorem W1_main_v8 (c : Dev nD) : W1 m ρ c (Proc.devRef .tc main_v8)
    = transpose S1x2048 [1, 0] (shapeCast S2048x1 (m ((c : Thread nD τ).loc main_arg2)) shapeCasts_S2048_S2048x1)
        transposes_S2048x1_S1x2048_1_0 := by
  dsimp only [W1]
  after_results
  rfl

/-- The gathered rows: the first argument's rows at the second argument's indices, a negative index counted from the
    end. -/
theorem W1_main_v6 (c : Dev nD) : W1 m ρ c (Proc.devRef .tc main_v6)
    = Host.gather gather_S4096x4096_S2048x1_S2048x4096_1_0_n_n_0_1_14096 (m ((c : Thread nD τ).loc main_arg0))
        (broadcastInDim S2048x1 ![0] bcast_S2048_S2048x1_0
          (select
            (cmpi .slt (m ((c : Thread nD τ).loc main_arg1)) (broadcastInDim S2048 ![] bcast_S_S2048 (constantI S_ 32 0#32)))
            (addi (m ((c : Thread nD τ).loc main_arg1)) (broadcastInDim S2048 ![] bcast_S_S2048 (constantI S_ 32 4096#32)))
            (m ((c : Thread nD τ).loc main_arg1)))) := by
  dsimp only [W1]
  after_results

end Cert.KernelIdeal.Hand

end
-- ==== Proof.KI.R1Pieces.lean ====
/-
  The second launch's found pieces read back as values, at any float instance: in every case the accumulator ends at
  ONE function of the point's loaded values and of the accumulator it started from — `acc + (row sums of the tile)` —,
  started from the zero column where `j = 0`; and where `j = 7` the output's buffer ends at that same new accumulator.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The 256 rows of the staged matrix the body multiplies from the left: rows `256·i …`. -/
def rowsOf (i : grid1.Coords) (x0 : Vec F S2048x4096 .bf16) : Vec F S256x4096 .bf16 :=
  View.ld x0 (Rect.unit (s := S2048x4096) (k1_off1 i) S256x4096.size (k1_off1_inb i))

/-- The 256 rows it multiplies from the right (transposed): rows `256·j …`. -/
def colsOf (i : grid1.Coords) (x0 : Vec F S2048x4096 .bf16) : Vec F S256x4096 .bf16 :=
  View.ld x0 (Rect.unit (s := S2048x4096) (k1_off2 i) S256x4096.size (k1_off2_inb i))

/-- The new accumulator: the old one plus the tile's row sums. -/
def step (i : grid1.Coords) (x0 : Vec F S2048x4096 .bf16) (x1 : Vec F S256x1 .f32) (x2 : Vec F S1x256 .f32) (x3 : Vec F S256x1 .i32) (x4 : Vec F S1x256 .i32) (acc : Vec F S256x1 .f32) : Vec F S256x1 .f32 :=
  k1_pay1 (k1_pay4 (rowsOf i x0) (colsOf i x0) x1 x2 x3 x4) (k1_pay5 (rowsOf i x0) (colsOf i x0) x1 x2) k1_pay6 acc

/-- Case B: the accumulator is carried on. -/
theorem sout_B (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S2048x4096 .bf16) (x1 : Vec F S256x1 .f32) (x2 : Vec F S1x256 .f32) (x3 : Vec F S256x1 .i32) (x4 : Vec F S1x256 .i32) (xs0 : Vec F S256x1 .f32) :
    sout1_B_0 c i arg2 harg2 arg3 harg3 arg4 harg4 arg5 harg5 arg6 harg6 arg7 harg7 arg8 harg8 hc0 hc1 x0 x1 x2 x3 x4 xs0 = step i x0 x1 x2 x3 x4 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x1) hz2, View.ld_unit_zero (S := S1x256) hz2]
  try rfl

/-- Case A: the accumulator is reset to the zero column first. -/
theorem sout_A (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S2048x4096 .bf16) (x1 : Vec F S256x1 .f32) (x2 : Vec F S1x256 .f32) (x3 : Vec F S256x1 .i32) (x4 : Vec F S1x256 .i32) :
    sout1_A_0 c i arg2 harg2 arg3 harg3 arg4 harg4 arg5 harg5 arg6 harg6 arg7 harg7 arg8 harg8 hc0 hc1 x0 x1 x2 x3 x4 = step i x0 x1 x2 x3 x4 (k1_pay2 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread, harg8.read_unread, View.ld_unit_zero (S := S256x1) hz2, View.ld_unit_zero (S := S1x256) hz2]
  try rfl

/-- Case C: the accumulator is carried on, -/
theorem sout_C (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S2048x4096 .bf16) (x1 : Vec F S256x1 .f32) (x2 : Vec F S1x256 .f32) (x3 : Vec F S256x1 .i32) (x4 : Vec F S1x256 .i32) (xs0 : Vec F S256x1 .f32) :
    sout1_C_0 c i arg2 harg2 arg3 harg3 arg4 harg4 arg5 harg5 arg6 harg6 arg7 harg7 arg8 harg8 hc0 hc1 x0 x1 x2 x3 x4 xs0 = step i x0 x1 x2 x3 x4 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x1) hz2, View.ld_unit_zero (S := S1x256) hz2]
  try rfl

/-- and copied to the output's buffer. -/
theorem out_C (c : Dev nD) (i : grid1.Coords) (arg2 : Memref sig .tc .vmem S2048x4096 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x1 .i32) (harg5 : arg5.IsWhole) (arg6 : Memref sig .tc .vmem S1x256 .i32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S2048x4096 .bf16) (x1 : Vec F S256x1 .f32) (x2 : Vec F S1x256 .f32) (x3 : Vec F S256x1 .i32) (x4 : Vec F S1x256 .i32) (xs0 : Vec F S256x1 .f32) :
    out1_C_5 c i arg2 harg2 arg3 harg3 arg4 harg4 arg5 harg5 arg6 harg6 arg7 harg7 arg8 harg8 hc0 hc1 x0 x1 x2 x3 x4 xs0 = step i x0 x1 x2 x3 x4 xs0 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x1) hz2, View.ld_unit_zero (S := S1x256) hz2, View.readCov_unit_zero (S := S256x1) _ hz2]
  try rfl

end Cert.KernelIdeal.Hand

end
-- ==== Proof.KI.R1Reads.lean ====
/-
  Where the second launch's loaded values sit in the arrays it was entered with. Point `t = 8·i + j` of the 8 × 8 grid
  loads rows `256·i …` and rows `256·j …` of the staged 2048 × 4096 matrix, rows `256·i …` of the column of norms and of
  the column of ids, and columns `256·j …` of the row of norms and of the row of ids.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.R1Pieces
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps and the body's two row offsets, decided over the grid. -/
theorem idx_facts1 : ∀ t : Fin cfg1.N,
    win1_0.index t (0 : Fin 2) = 0 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = t.val % 8
    ∧ win1_5.index t (0 : Fin 2) = t.val / 8 ∧ win1_5.index t (1 : Fin 2) = 0
    ∧ k1_off1 (grid1.coords t) (0 : Fin 2) = 256 * (t.val / 8) ∧ k1_off1 (grid1.coords t) (1 : Fin 2) = 0
    ∧ k1_off2 (grid1.coords t) (0 : Fin 2) = 256 * (t.val % 8) ∧ k1_off2 (grid1.coords t) (1 : Fin 2) = 0 :=
  (by decide +kernel : ∀ t : Fin grid1.N, _)

/-- Row `p` of tile row `i`, as a row of the 2048-row arrays. -/
def rowAt (i : ℕ) (p : Fin 256) : Fin 2048 := ⟨(256 * i + p.val) % 2048, Nat.mod_lt _ (by decide)⟩

theorem rowAt_val (i : ℕ) (hi : i < 8) (p : Fin 256) : (rowAt i p).val = 256 * i + p.val := by
  unfold rowAt; dsimp only; have := p.isLt; omega

/-- The left operand's rows: rows `256·i + p` of the staged matrix. -/
theorem rows_apply (c : Dev nD) (t : Fin cfg1.N) (p : Fin 256) (d : Fin 4096) :
    (rowsOf (grid1.coords t) (iblk1 V c 0 t) : Vec F S256x4096 .bf16) (ix2 p d) = V c main_v9_0 (ix2 (rowAt (t.val / 8) p) d) := by
  obtain ⟨e00, e01, -, -, -, -, -, -, -, -, -, -, o10, o11, -, -⟩ := idx_facts1 t
  have hN : t.val < 64 := lt_of_lt_of_eq t.isLt (show cfg1.N = 64 from N_1)
  have hr := rowAt_val (t.val / 8) (by omega) p
  show V c main_v9_0 (((cfg1.win 0).blk t).view.emb ((Rect.unit (s := S2048x4096) (k1_off1 (grid1.coords t)) S256x4096.size (k1_off1_inb (grid1.coords t))).emb (ix2 p d))) = _
  refine congrArg (V c main_v9_0) ?_
  funext a; apply Fin.ext
  match a with
  | ⟨0, _⟩ => show win1_0.index t (0 : Fin 2) * 2048 + 1 * (k1_off1 (grid1.coords t) (0 : Fin 2) + 1 * p.val) = (rowAt (t.val / 8) p).val; rw [e00, o10, hr]; omega
  | ⟨1, _⟩ => show win1_0.index t (1 : Fin 2) * 4096 + 1 * (k1_off1 (grid1.coords t) (1 : Fin 2) + 1 * d.val) = d.val; rw [e01, o11]; omega

/-- The right operand's rows: rows `256·j + q` of the staged matrix. -/
theorem cols_apply (c : Dev nD) (t : Fin cfg1.N) (q : Fin 256) (d : Fin 4096) :
    (colsOf (grid1.coords t) (iblk1 V c 0 t) : Vec F S256x4096 .bf16) (ix2 q d) = V c main_v9_0 (ix2 (rowAt (t.val % 8) q) d) := by
  obtain ⟨e00, e01, -, -, -, -, -, -, -, -, -, -, -, -, o20, o21⟩ := idx_facts1 t
  have hr := rowAt_val (t.val % 8) (by omega) q
  show V c main_v9_0 (((cfg1.win 0).blk t).view.emb ((Rect.unit (s := S2048x4096) (k1_off2 (grid1.coords t)) S256x4096.size (k1_off2_inb (grid1.coords t))).emb (ix2 q d))) = _
  refine congrArg (V c main_v9_0) ?_
  funext a; apply Fin.ext
  match a with
  | ⟨0, _⟩ => show win1_0.index t (0 : Fin 2) * 2048 + 1 * (k1_off2 (grid1.coords t) (0 : Fin 2) + 1 * q.val) = (rowAt (t.val % 8) q).val; rw [e00, o20, hr]; omega
  | ⟨1, _⟩ => show win1_0.index t (1 : Fin 2) * 4096 + 1 * (k1_off2 (grid1.coords t) (1 : Fin 2) + 1 * d.val) = d.val; rw [e01, o21]; omega

/-- The norms' column block: rows `256·i + p`. -/
theorem normcol_apply (c : Dev nD) (t : Fin cfg1.N) (p : Fin 256) :
    (iblk1 V c 1 t : Vec F S256x1 .f32) (ix2 p 0) = V c main_v9_1 (ix2 (rowAt (t.val / 8) p) 0) := by
  obtain ⟨-, -, e10, e11, -, -, -, -, -, -, -, -, -, -, -, -⟩ := idx_facts1 t
  have hN : t.val < 64 := lt_of_lt_of_eq t.isLt (show cfg1.N = 64 from N_1)
  have hr := rowAt_val (t.val / 8) (by omega) p
  show V c main_v9_1 (((cfg1.win 1).blk t).view.emb (ix2 p 0)) = _
  refine congrArg (V c main_v9_1) ?_
  funext a; apply Fin.ext
  match a with
  | ⟨0, _⟩ => show win1_1.index t (0 : Fin 2) * 256 + 1 * p.val = (rowAt (t.val / 8) p).val; rw [e10, hr]; omega
  | ⟨1, _⟩ => show win1_1.index t (1 : Fin 2) * 1 + 1 * 0 = 0; rw [e11]

/-- The norms' row block: columns `256·j + q`. -/
theorem normrow_apply (c : Dev nD) (t : Fin cfg1.N) (q : Fin 256) :
    (iblk1 V c 2 t : Vec F S1x256 .f32) (ix2 0 q) = V c main_v10 (ix2 0 (rowAt (t.val % 8) q)) := by
  obtain ⟨-, -, -, -, e20, e21, -, -, -, -, -, -, -, -, -, -⟩ := idx_facts1 t
  have hr := rowAt_val (t.val % 8) (by omega) q
  show V c main_v10 (((cfg1.win 2).blk t).view.emb (ix2 0 q)) = _
  refine congrArg (V c main_v10) ?_
  funext a; apply Fin.ext
  match a with
  | ⟨0, _⟩ => show win1_2.index t (0 : Fin 2) * 1 + 1 * 0 = 0; rw [e20]
  | ⟨1, _⟩ => show win1_2.index t (1 : Fin 2) * 256 + 1 * q.val = (rowAt (t.val % 8) q).val; rw [e21, hr]; omega

/-- The ids' column block: rows `256·i + p`. -/
theorem idcol_apply (c : Dev nD) (t : Fin cfg1.N) (p : Fin 256) :
    (iblk1 V c 3 t : Vec F S256x1 .i32) (ix2 p 0) = V c main_v7 (ix2 (rowAt (t.val / 8) p) 0) := by
  obtain ⟨-, -, -, -, -, -, e30, e31, -, -, -, -, -, -, -, -⟩ := idx_facts1 t
  have hN : t.val < 64 := lt_of_lt_of_eq t.isLt (show cfg1.N = 64 from N_1)
  have hr := rowAt_val (t.val / 8) (by omega) p
  show V c main_v7 (((cfg1.win 3).blk t).view.emb (ix2 p 0)) = _
  refine congrArg (V c main_v7) ?_
  funext a; apply Fin.ext
  match a with
  | ⟨0, _⟩ => show win1_3.index t (0 : Fin 2) * 256 + 1 * p.val = (rowAt (t.val / 8) p).val; rw [e30, hr]; omega
  | ⟨1, _⟩ => show win1_3.index t (1 : Fin 2) * 1 + 1 * 0 = 0; rw [e31]

/-- The ids' row block: columns `256·j + q`. -/
theorem idrow_apply (c : Dev nD) (t : Fin cfg1.N) (q : Fin 256) :
    (iblk1 V c 4 t : Vec F S1x256 .i32) (ix2 0 q) = V c main_v8 (ix2 0 (rowAt (t.val % 8) q)) := by
  obtain ⟨-, -, -, -, -, -, -, -, e40, e41, -, -, -, -, -, -⟩ := idx_facts1 t
  have hr := rowAt_val (t.val % 8) (by omega) q
  show V c main_v8 (((cfg1.win 4).blk t).view.emb (ix2 0 q)) = _
  refine congrArg (V c main_v8) ?_
  funext a; apply Fin.ext
  match a with
  | ⟨0, _⟩ => show win1_4.index t (0 : Fin 2) * 1 + 1 * 0 = 0; rw [e40]
  | ⟨1, _⟩ => show win1_4.index t (1 : Fin 2) * 256 + 1 * q.val = (rowAt (t.val % 8) q).val; rw [e41, hr]; omega

end Cert.KernelIdeal.Hand

end
-- ==== Proof.Spec.lean ====
import Idealize.ShloMosaic.PureOps.Ideal
import Idealize.ShloMosaic.Lib.ValueIdx

/-!
# The specification: a mean binary-cross-entropy loss over pairwise cosine similarities

For a matrix `X` of 2048 rows of 4096 extended reals and a vector `ids` of 2048 words, the loss is
the mean over all ordered pairs `(r, c)` of rows of

  `max s 0 - s * t + log1p (exp (-|s|))`,

where `s = ⟨X r, X c⟩ / max (‖X r‖ * ‖X c‖) ε` is the cosine similarity of the two rows, with the
denominator clamped below by the literal `ε`, and `t` is `1` when the two rows carry the same word
and `0` otherwise. The mean divides the sum over the `2048 * 2048` pairs by the literal `2 ^ 22`.

Everything is stated on the extended reals with the operations' corner conventions of the ideal float
instance (`Ideal.div`, `Ideal.sqrt`, `Ideal.exp`, `Ideal.log1p`); the two non-zero float literals stay
as the words they are written with.
-/

noncomputable section

open scoped BigOperators

namespace Cert.Spec

open Idealize.ShloMosaic Idealize.ShloMosaic.ValueIdx

/-- The squared Euclidean norm of row `r`. -/
def sqn (X : (⟨2, ![2048, 4096]⟩ : Shape).Idx → EReal) (r : Fin 2048) : EReal :=
  ∑ d : Fin 4096, X (ix2 r d) * X (ix2 r d)

/-- The inner product of rows `r` and `c`. -/
def gram (X : (⟨2, ![2048, 4096]⟩ : Shape).Idx → EReal) (r c : Fin 2048) : EReal :=
  ∑ d : Fin 4096, X (ix2 r d) * X (ix2 c d)

/-- The Euclidean norm of row `r`. -/
def nrm (X : (⟨2, ![2048, 4096]⟩ : Shape).Idx → EReal) (r : Fin 2048) : EReal :=
  Ideal.sqrt (sqn X r)

/-- The cosine similarity of rows `r` and `c`, its denominator clamped below by the literal `1e-8`. -/
def sim (X : (⟨2, ![2048, 4096]⟩ : Shape).Idx → EReal) (r c : Fin 2048) : EReal :=
  Ideal.div (gram X r c) (max (nrm X r * nrm X c) (Ideal.ofBits .f32 0x322BCC77#32))

/-- The target of the pair `(r, c)`: `1` when the two rows carry the same word, else `0` (the
    one-bit comparison read as an unsigned integer). -/
def tgt (ids : (⟨1, ![2048]⟩ : Shape).Idx → BitVec 32) (r c : Fin 2048) : EReal :=
  (((IntOp.cmpi .eq (ids (ix1 r)) (ids (ix1 c))).toNat : ℝ) : EReal)

/-- The binary cross-entropy with logits of the pair `(r, c)`, in its numerically stable form
    `max s 0 - s * t + log (1 + exp (-|s|))`. -/
def bceAt (X : (⟨2, ![2048, 4096]⟩ : Shape).Idx → EReal) (ids : (⟨1, ![2048]⟩ : Shape).Idx → BitVec 32)
    (r c : Fin 2048) : EReal :=
  max (sim X r c) 0 - sim X r c * tgt ids r c
    + Ideal.log1p (Ideal.exp (-(max (sim X r c) (-(sim X r c)))))

/-- The loss: the mean of `bceAt` over all `2048 * 2048` ordered pairs (the divisor is the literal
    `4194304.0`). -/
def loss (X : (⟨2, ![2048, 4096]⟩ : Shape).Idx → EReal) (ids : (⟨1, ![2048]⟩ : Shape).Idx → BitVec 32) : EReal :=
  Ideal.div (∑ r : Fin 2048, ∑ c : Fin 2048, bceAt X ids r c) (Ideal.ofBits .f32 0x4A800000#32)

theorem sqn_def (X : (⟨2, ![2048, 4096]⟩ : Shape).Idx → EReal) (r : Fin 2048) :
    sqn X r = ∑ d : Fin 4096, X (ix2 r d) * X (ix2 r d) := rfl

theorem gram_def (X : (⟨2, ![2048, 4096]⟩ : Shape).Idx → EReal) (r c : Fin 2048) :
    gram X r c = ∑ d : Fin 4096, X (ix2 r d) * X (ix2 c d) := rfl

theorem nrm_def (X : (⟨2, ![2048, 4096]⟩ : Shape).Idx → EReal) (r : Fin 2048) :
    nrm X r = Ideal.sqrt (sqn X r) := rfl

theorem sim_def (X : (⟨2, ![2048, 4096]⟩ : Shape).Idx → EReal) (r c : Fin 2048) :
    sim X r c = Ideal.div (gram X r c) (max (nrm X r * nrm X c) (Ideal.ofBits .f32 0x322BCC77#32)) := rfl

theorem tgt_def (ids : (⟨1, ![2048]⟩ : Shape).Idx → BitVec 32) (r c : Fin 2048) :
    tgt ids r c = (((IntOp.cmpi .eq (ids (ix1 r)) (ids (ix1 c))).toNat : ℝ) : EReal) := rfl

theorem bceAt_def (X : (⟨2, ![2048, 4096]⟩ : Shape).Idx → EReal) (ids : (⟨1, ![2048]⟩ : Shape).Idx → BitVec 32)
    (r c : Fin 2048) :
    bceAt X ids r c = max (sim X r c) 0 - sim X r c * tgt ids r c
      + Ideal.log1p (Ideal.exp (-(max (sim X r c) (-(sim X r c))))) := rfl

theorem loss_def (X : (⟨2, ![2048, 4096]⟩ : Shape).Idx → EReal) (ids : (⟨1, ![2048]⟩ : Shape).Idx → BitVec 32) :
    loss X ids = Ideal.div (∑ r : Fin 2048, ∑ c : Fin 2048, bceAt X ids r c) (Ideal.ofBits .f32 0x4A800000#32) := rfl

/-- The per-pair loss as a function of the pair's own data: the inner product `g` of the two rows,
    their norms `a` and `b`, and the two words `ia`, `ib`. -/
def bceOf (g a b : EReal) (ia ib : BitVec 32) : EReal :=
  max (Ideal.div g (max (a * b) (Ideal.ofBits .f32 0x322BCC77#32))) 0
    - Ideal.div g (max (a * b) (Ideal.ofBits .f32 0x322BCC77#32)) * (((IntOp.cmpi .eq ia ib).toNat : ℝ) : EReal)
    + Ideal.log1p (Ideal.exp (-(max (Ideal.div g (max (a * b) (Ideal.ofBits .f32 0x322BCC77#32)))
        (-(Ideal.div g (max (a * b) (Ideal.ofBits .f32 0x322BCC77#32)))))))

theorem bceOf_def (g a b : EReal) (ia ib : BitVec 32) :
    bceOf g a b ia ib
      = max (Ideal.div g (max (a * b) (Ideal.ofBits .f32 0x322BCC77#32))) 0
        - Ideal.div g (max (a * b) (Ideal.ofBits .f32 0x322BCC77#32)) * (((IntOp.cmpi .eq ia ib).toNat : ℝ) : EReal)
        + Ideal.log1p (Ideal.exp (-(max (Ideal.div g (max (a * b) (Ideal.ofBits .f32 0x322BCC77#32)))
            (-(Ideal.div g (max (a * b) (Ideal.ofBits .f32 0x322BCC77#32))))))) := rfl

/-- The per-pair loss of rows `r`, `c` is `bceOf` of their inner product, norms and words. -/
theorem bceAt_eq_bceOf (X : (⟨2, ![2048, 4096]⟩ : Shape).Idx → EReal) (ids : (⟨1, ![2048]⟩ : Shape).Idx → BitVec 32)
    (r c : Fin 2048) :
    bceAt X ids r c = bceOf (gram X r c) (nrm X r) (nrm X c) (ids (ix1 r)) (ids (ix1 c)) := rfl

end Cert.Spec

end
-- ==== Proof.KI.Entry.lean ====
/-
  What the second launch must find in the arrays it is entered with, for its result to be the loss's row sums: the staged
  matrix is the gathered matrix `X`, the column and the row of norms hold `X`'s row norms, the column and the row of ids
  hold the ids.
-/
import proofs.«102577_j3977139716295_2_alg».proof.Proof.KI.R1Reads
import proofs.«102577_j3977139716295_2_alg».proof.Proof.Spec

noncomputable section

namespace Cert.KernelIdeal.Hand

open Idealize.ShloMosaic Idealize.ShloMosaic.TcCoe Idealize.SL.Sem Idealize.ShloMosaic.ValueIdx
open Cert.KernelIdeal Cert.KernelIdeal.Gen

/-- The arrays the second launch reads, on core `c`, as functions of the gathered matrix `X` and the ids. -/
structure Entry (V : (c : Dev nD) → (b : Ref sig .tc) → Buf (Elt Ideal) ((c : Thread nD τ).loc b)) (c : Dev nD)
    (X : (⟨2, ![2048, 4096]⟩ : Shape).Idx → EReal) (ids : (⟨1, ![2048]⟩ : Shape).Idx → BitVec 32) : Prop where
  hX : ∀ (r : Fin 2048) (d : Fin 4096), (V c main_v9_0 : S2048x4096.Idx → EReal) (ix2 r d) = X (ix2 r d)
  hn : ∀ r : Fin 2048, (V c main_v9_1 : S2048x1.Idx → EReal) (ix2 r 0) = Cert.Spec.nrm X r
  hnr : ∀ r : Fin 2048, (V c main_v10 : S1x2048.Idx → EReal) (ix2 0 r) = Cert.Spec.nrm X r
  hid : ∀ r : Fin 2048, (V c main_v7 : S2048x1.Idx → BitVec 32) (ix2 r 0) = ids (ix1 r)
  hidr : ∀ r : Fin 2048, (V c main_v8 : S1x2048.Idx → BitVec 32) (ix2 0 r) = ids (ix1 r)

end Cert.KernelIdeal.Hand

end
-- ==== Proof.Tile.lean ====
import proofs.«102577_j3977139716295_2_alg».proof.Proof.Gen.KernelIdeal.Skeleton
import proofs.«102577_j3977139716295_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

/-!
# One tile of the second kernel, read at an index

The second kernel works on a tile of 256 rows against 256 columns. From two blocks of 256 rows each
(`l`, `r`), the rows' norms as a column (`a`) and the columns' norms as a row (`b`), and the rows'
and columns' words (`ia`, `ib`), it forms the 256 × 256 matrix of per-pair losses, sums each row of it
over the 256 columns, and adds that column of row sums onto an accumulator. Read at one entry, the
matrix is `Cert.Spec.bceOf` of the two rows' inner product, their norms and their words; read at one
row, the updated accumulator is the old one plus the sum of that row's 256 entries.
-/

noncomputable section

open scoped BigOperators

namespace Cert.Tile

open Cert.KernelIdeal Cert.KernelIdeal.Gen Idealize.ShloMosaic Idealize.ShloMosaic.ValueIdx

/-! ## Layout operations on a column -/

section Layout
variable {α : Type}

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two non-pointwise operations -/

/-- The left operand's index of the product at output `i` and contraction index `k`: row `i 0` … -/
theorem lhs_row (i : S256x256.Idx) (k : dot_S256x4096_S256x4096_S256x256_1_1_0_0_n_n.contr.Idx) :
    (dot_S256x4096_S256x4096_S256x256_1_1_0_0_n_n.lhsIdx i k 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
/-- … and column `k`. -/
theorem lhs_col (i : S256x256.Idx) (k : dot_S256x4096_S256x4096_S256x256_1_1_0_0_n_n.contr.Idx) :
    (dot_S256x4096_S256x4096_S256x256_1_1_0_0_n_n.lhsIdx i k 1).val = (k ⟨0, by decide⟩).val :=
  dot_S256x4096_S256x4096_S256x256_1_1_0_0_n_n.lhsIdx_val_of_single rfl i k
/-- The right operand's index: row `i 1` … -/
theorem rhs_row (i : S256x256.Idx) (k : dot_S256x4096_S256x4096_S256x256_1_1_0_0_n_n.contr.Idx) :
    (dot_S256x4096_S256x4096_S256x256_1_1_0_0_n_n.rhsIdx i k 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
/-- … and column `k`: both operands are contracted along their columns. -/
theorem rhs_col (i : S256x256.Idx) (k : dot_S256x4096_S256x4096_S256x256_1_1_0_0_n_n.contr.Idx) :
    (dot_S256x4096_S256x4096_S256x256_1_1_0_0_n_n.rhsIdx i k 1).val = (k ⟨0, by decide⟩).val :=
  dot_S256x4096_S256x4096_S256x256_1_1_0_0_n_n.rhsIdx_val_of_single rfl i k

/-- The product of a block of rows with the transpose of another, into a zero accumulator, is at
    `(p, q)` the inner product of row `p` of the first with row `q` of the second. -/
theorem gram_apply (l r : FVec Ideal S256x4096 .bf16) (p q : Fin 256) :
    matmul dot_S256x4096_S256x4096_S256x256_1_1_0_0_n_n none l r (constant S256x256 .f32 0x00000000#32) (ix2 p q)
      = ∑ d : Fin 4096, l (ix2 p d) * r (ix2 q d) := by
  show FloatOps.matmul dot_S256x4096_S256x4096_S256x256_1_1_0_0_n_n none l r (constant S256x256 .f32 0x00000000#32) (ix2 p q) = _
  rw [Ideal.matmul_constant_zero_apply,
    ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k :=
    funext fun a => Fin.ext (by
      match a with
      | ⟨0, _⟩ => exact lhs_row _ _
      | ⟨1, _⟩ => exact (lhs_col _ _).trans hk)
  have er : dot_S256x4096_S256x4096_S256x256_1_1_0_0_n_n.rhsIdx (ix2 p q) ((contrEquiv1 dot_S256x4096_S256x4096_S256x256_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The sum along the columns of a 256 × 256 matrix is, at row `p`, the sum of that row's entries. -/
theorem laneSum_apply (src : FVec Ideal S256x256 .f32) (hacc : (0x00000000#32 : BitVec 32) = 0x00000000#32)
    (p : Fin 256) :
    multiReduction .add [1] S256 src 0x00000000#32 reduces_S256x256_S256 (.inl rfl) hacc (ix1 p)
      = ∑ q : Fin 256, src (ix2 p q) := by
  refine (Ideal.multiReduction_add_single src 0x00000000#32 reduces_S256x256_S256 (.inl rfl) hacc (ix1 p)).trans ?_
  refine Finset.sum_congr rfl fun q _ => congrArg src ?_
  funext a
  match a with
  | ⟨0, _⟩ => rfl
  | ⟨1, _⟩ => rfl

/-! ## The payloads at an index -/

section Payloads
variable (v8 v11 : FVec Ideal S256x4096 .bf16) (v14 : FVec Ideal S256x1 .f32) (v16 : FVec Ideal S1x256 .f32)
  (v24 : IVec S256x1 32) (v26 : IVec S1x256 32) (acc : FVec Ideal S256x1 .f32) (p q : Fin 256)

/-- The similarity of row `p` of the first block and row `q` of the second: their inner product over
    the clamped product of their norms. -/
theorem sim_apply :
    k1_pay3 (F := Ideal) v8 v11 v14 v16 (ix2 p q)
      = Ideal.div (∑ d : Fin 4096, v8 (ix2 p d) * v11 (ix2 q d))
          (max (v14 (ix2 p (0 : Fin 1)) * v16 (ix2 (0 : Fin 1) q)) (Ideal.ofBits .f32 0x322BCC77#32)) := by
  show Ideal.div
      (matmul dot_S256x4096_S256x4096_S256x256_1_1_0_0_n_n none (shapeCast S256x4096 v8 shapeCasts_S256x4096_S256x4096)
        (shapeCast S256x4096 v11 shapeCasts_S256x4096_S256x4096) (constant S256x256 .f32 0x00000000#32) (ix2 p q))
      (max (broadcastTo S256x256 (shapeCast S256x1 v14 shapeCasts_S256x1_S256x1) broadcasts_S256x1_S256x256 (ix2 p q)
          * broadcastTo S256x256 (shapeCast S1x256 v16 shapeCasts_S1x256_S1x256) broadcasts_S1x256_S256x256 (ix2 p q))
        (Ideal.ofBits .f32 0x322BCC77#32)) = _
  rw [shapeCast_self, shapeCast_self, shapeCast_self, shapeCast_self, gram_apply, broadcastTo_a1_ab_apply,
    broadcastTo_1b_ab_apply]

/-- The target of the pair: the words' equality bit, widened and converted, is the bit read unsigned. -/
theorem tgt_apply :
    (sitofp .f32 (extui 32 (cmpi .eq
        (broadcastTo S256x256 (shapeCast S256x1 v24 shapeCasts_S256x1_S256x1) broadcasts_S256x1_S256x256)
        (broadcastTo S256x256 (shapeCast S1x256 v26 shapeCasts_S1x256_S1x256) broadcasts_S1x256_S256x256)) natLt_1_32)
      : FVec Ideal S256x256 .f32) (ix2 p q)
      = (((IntOp.cmpi .eq (v24 (ix2 p (0 : Fin 1))) (v26 (ix2 (0 : Fin 1) q))).toNat : ℝ) : EReal) := by
  rw [sitofp_extui_eq_uitofp]
  show (((IntOp.cmpi .eq
      (broadcastTo S256x256 (shapeCast S256x1 v24 shapeCasts_S256x1_S256x1) broadcasts_S256x1_S256x256 (ix2 p q))
      (broadcastTo S256x256 (shapeCast S1x256 v26 shapeCasts_S1x256_S1x256) broadcasts_S1x256_S256x256 (ix2 p q))).toNat : ℝ) : EReal) = _
  rw [shapeCast_self, shapeCast_self, broadcastTo_a1_ab_apply, broadcastTo_1b_ab_apply]

/-- **One entry of the tile** is the per-pair loss of the two rows' inner product, norms and words. -/
theorem entry_apply :
    (addf (k1_pay4 (F := Ideal) v8 v11 v14 v16 v24 v26) (log1p (exp (subf (k1_pay6 (F := Ideal)) (k1_pay5 (F := Ideal) v8 v11 v14 v16)))))
        (ix2 p q)
      = Cert.Spec.bceOf (∑ d : Fin 4096, v8 (ix2 p d) * v11 (ix2 q d)) (v14 (ix2 p (0 : Fin 1)))
          (v16 (ix2 (0 : Fin 1) q)) (v24 (ix2 p (0 : Fin 1))) (v26 (ix2 (0 : Fin 1) q)) := by
  show max (k1_pay3 (F := Ideal) v8 v11 v14 v16 (ix2 p q)) (Ideal.ofBits .f32 0x00000000#32)
        - k1_pay3 (F := Ideal) v8 v11 v14 v16 (ix2 p q)
          * (sitofp .f32 (extui 32 (cmpi .eq
              (broadcastTo S256x256 (shapeCast S256x1 v24 shapeCasts_S256x1_S256x1) broadcasts_S256x1_S256x256)
              (broadcastTo S256x256 (shapeCast S1x256 v26 shapeCasts_S1x256_S1x256) broadcasts_S1x256_S256x256)) natLt_1_32)
            : FVec Ideal S256x256 .f32) (ix2 p q)
      + Ideal.log1p (Ideal.exp (Ideal.ofBits .f32 0x00000000#32
          - max (k1_pay3 (F := Ideal) v8 v11 v14 v16 (ix2 p q)) (-(k1_pay3 (F := Ideal) v8 v11 v14 v16 (ix2 p q))))) = _
  rw [tgt_apply, sim_apply, Ideal.ofBits_zero_f32, zero_sub]
  rfl

/-- **One row of the update**: the accumulator's entry at row `p` grows by the sum of that row's 256
    entries of the tile. -/
theorem row_apply :
    k1_pay1 (F := Ideal) (k1_pay4 (F := Ideal) v8 v11 v14 v16 v24 v26) (k1_pay5 (F := Ideal) v8 v11 v14 v16) (k1_pay6 (F := Ideal)) acc (ix2 p (0 : Fin 1))
      = acc (ix2 p (0 : Fin 1)) + ∑ q : Fin 256,
          Cert.Spec.bceOf (∑ d : Fin 4096, v8 (ix2 p d) * v11 (ix2 q d)) (v14 (ix2 p (0 : Fin 1)))
            (v16 (ix2 (0 : Fin 1) q)) (v24 (ix2 p (0 : Fin 1))) (v26 (ix2 (0 : Fin 1) q)) := by
  show shapeCast S256x1 (addf acc (shapeCast S256x1
      (multiReduction .add [1] S256
        (addf (k1_pay4 (F := Ideal) v8 v11 v14 v16 v24 v26) (log1p (exp (subf (k1_pay6 (F := Ideal)) (k1_pay5 (F := Ideal) v8 v11 v14 v16)))))
        0x00000000#32 reduces_S256x256_S256 (.inl rfl) rfl)
      shapeCasts_S256_S256x1)) shapeCasts_S256x1_S256x1 (ix2 p (0 : Fin 1)) = _
  rw [shapeCast_self]
  show acc (ix2 p (0 : Fin 1)) + shapeCast S256x1
      (multiReduction .add [1] S256
        (addf (k1_pay4 (F := Ideal) v8 v11 v14 v16 v24 v26) (log1p (exp (subf (k1_pay6 (F := Ideal)) (k1_pay5 (F := Ideal) v8 v11 v14 v16)))))
        0x00000000#32 reduces_S256x256_S256 (.inl rfl) rfl)
      shapeCasts_S256_S256x1 (ix2 p (0 : Fin 1)) = _
  rw [shapeCast_a_a1_apply]
  refine congrArg (acc (ix2 p (0 : Fin 1)) + ·) ((laneSum_apply _ rfl p).trans ?_)
  exact Finset.sum_congr rfl fun q _ => entry_apply v8 v11 v14 v16 v24 v26 p q

/-- The accumulator's reset value is zero at every row. -/
theorem reset_apply : (k1_pay2 (F := Ideal)) (ix2 p (0 : Fin 1)) = 0 := by
  show shapeCast S256x1 (broadcast S256x1 (Scalar.ofBits (F := Ideal) .f32 0x00000000#32)) shapeCasts_S256x1_S256x1
      (ix2 p (0 : Fin 1)) = 0
  rw [shapeCast_self]
  exact Ideal.ofBits_zero_f32

end Payloads

end Cert.Tile

end
-- ==== Proof.Regroup.lean ====
import Idealize.ShloMosaic.PureOps.Ideal.Laws

/-!
# Regrouping a sum over 2048 columns into 8 tiles of 256

A sum over `Fin 2048` is the sum over eight consecutive tiles of 256 columns each, and a left-nested
chain of eight additions onto a starting value is that value plus the sum of the eight terms. Both hold
in any commutative additive monoid (only associativity and commutativity of `+` are used, so they hold
on the extended reals with no finiteness hypothesis). Two small facts on the extended reals follow:
subtracting from zero negates, and the all-zero 32-bit float word denotes zero.
-/

open scoped BigOperators

namespace Cert.Regroup

/-- Column `256 * j + k` of tile `j`, position `k`. -/
abbrev col (j : Fin 8) (k : Fin 256) : Fin 2048 := ⟨256 * j.val + k.val, by omega⟩

/-- The sum over all 2048 columns, tile by tile. -/
theorem sum_tiles {M : Type*} [AddCommMonoid M] (f : Fin 2048 → M) :
    ∑ j : Fin 8, ∑ k : Fin 256, f ⟨256 * j.val + k.val, by omega⟩ = ∑ c : Fin 2048, f c := by
  have h := Equiv.sum_comp (finProdFinEquiv (m := 8) (n := 256))
    (fun c : Fin (8 * 256) => f ⟨c.val, by have := c.isLt; omega⟩)
  rw [Fintype.sum_prod_type] at h
  refine Eq.trans ?_ (h.trans ?_)
  · refine Finset.sum_congr rfl fun j _ => Finset.sum_congr rfl fun k _ => ?_
    refine congrArg f (Fin.ext ?_)
    show 256 * j.val + k.val = k.val + 256 * j.val
    omega
  · rfl

/-- Eight additions, nested to the left, onto a starting value. -/
theorem fold8 {M : Type*} [AddCommMonoid M] (z : M) (g : ℕ → M) :
    ((((((((z + g 0) + g 1) + g 2) + g 3) + g 4) + g 5) + g 6) + g 7) = z + ∑ j : Fin 8, g j.val := by
  simp [Fin.sum_univ_eight, add_assoc]

/-- On the extended reals, subtracting from zero negates. -/
theorem zero_sub' (x : EReal) : 0 - x = -x := zero_sub x

/-- The all-zero 32-bit float word denotes the extended real zero. -/
theorem ofBits_zero : Idealize.ShloMosaic.Ideal.ofBits .f32 0x00000000#32 = 0 :=
  Idealize.ShloMosaic.Ideal.ofBits_zero_f32

end Cert.Regroup
-- ==== Proof.KI.R1Value.lean ====
/-
  The second launch's result at the ideal instance. With the arrays it is entered with holding the gathered matrix `X`,
  its row norms and the ids, point `t = 8·i + j` adds to row `p` of the accumulator the sum over the 256 columns of tile
  `(i, j)` of the loss entries `bce(256·i + p, 256·j + q)`; started from zero at `j = 0`, after `j = 7` row `p` holds the sum
  over all 2048 columns, which is then written to rows `256·i …` of the result. Sums on the extended reals form a
  commutative monoid, so the regrouping by tiles needs no finiteness.
-/
import proofs.«102577_j3977139716295_2_alg».proof.Proof.Gen.KernelIdeal.Launch
import proofs.«102577_j3977139716295_2_alg».proof.Proof.Gen.KernelIdeal.Skeleton
import proofs.«102577_j3977139716295_2_alg».proof.Proof.Gen.KernelIdeal.Points
import proofs.«102577_j3977139716295_2_alg».proof.Proof.KI.Entry
import proofs.«102577_j3977139716295_2_alg».proof.Proof.Tile
import proofs.«102577_j3977139716295_2_alg».proof.Proof.Regroup
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)
variable (X : (⟨2, ![2048, 4096]⟩ : Shape).Idx → EReal) (ids : (⟨1, ![2048]⟩ : Shape).Idx → BitVec 32)

/-- Tile `(i, j)`'s contribution to row `p`: the loss entries of its 256 columns, summed. -/
def tileSum (i j : ℕ) (p : Fin 256) : EReal := ∑ q : Fin 256, Cert.Spec.bceAt X ids (rowAt i p) (rowAt j q)

/-- The body's step at point `t`, read at row `p`: the old accumulator's row plus the tile's contribution. -/
theorem stepAt_apply (h : Entry V c X ids) (t : Fin cfg1.N) (acc : Vec Ideal S256x1 .f32) (p : Fin 256) :
    step (F := Ideal) (grid1.coords t) (iblk1 V c 0 t) (iblk1 V c 1 t) (iblk1 V c 2 t) (iblk1 V c 3 t) (iblk1 V c 4 t) acc (ix2 p 0)
      = acc (ix2 p 0) + tileSum X ids (t.val / 8) (t.val % 8) p := by
  unfold step
  refine (Cert.Tile.row_apply _ _ _ _ _ _ acc p).trans ?_
  refine congrArg (acc (ix2 p 0) + ·) ?_
  unfold tileSum
  refine Finset.sum_congr rfl fun q _ => ?_
  rw [Cert.Spec.bceAt_eq_bceOf]
  have hg : (∑ d : Fin 4096, (rowsOf (F := Ideal) (grid1.coords t) (iblk1 V c 0 t) : Vec Ideal S256x4096 .bf16) (ix2 p d) * (colsOf (F := Ideal) (grid1.coords t) (iblk1 V c 0 t) : Vec Ideal S256x4096 .bf16) (ix2 q d))
      = Cert.Spec.gram X (rowAt (t.val / 8) p) (rowAt (t.val % 8) q) := by
    rw [Cert.Spec.gram_def]
    refine Finset.sum_congr rfl fun d _ => ?_
    rw [rows_apply V c t p d, cols_apply V c t q d]
    exact congrArg₂ (· * ·) (h.hX _ d) (h.hX _ d)
  rw [hg, normcol_apply V c t p, normrow_apply V c t q, idcol_apply V c t p, idrow_apply V c t q, h.hn, h.hnr, h.hid, h.hidr]

/-- The accumulator after position `n = 8·i + k`, row `p`: the contributions of tiles `(i, 0) … (i, k)`. -/
theorem acc_eq (h : Entry V c X ids) : ∀ (n : ℕ) (hn : n < cfg1.N) (p : Fin 256),
    ((outsAt1 (F := Ideal) V c n hn).2 : Vec Ideal S256x1 .f32) (ix2 p 0) = ∑ j ∈ Finset.range (n % 8 + 1), tileSum X ids (n / 8) j p := by
  intro n
  induction n with
  | zero =>
    intro hn p
    rw [outsAt1_A V c ⟨0, hn⟩ (Nat.zero_mod _) (by dsimp only; omega)]
    dsimp only
    rw [sout_A, stepAt_apply V c X ids h ⟨0, hn⟩ _ p, Cert.Tile.reset_apply, zero_add]
    simp
  | succ n ih =>
    intro hn p
    have hN : n + 1 < 64 := lt_of_lt_of_eq hn (show cfg1.N = 64 from N_1)
    by_cases h0 : (n + 1) % 8 = 0
    · have h1 : ¬(n + 1) % 8 = 7 := by omega
      rw [outsAt1_A V c ⟨n + 1, hn⟩ h0 h1]
      dsimp only
      rw [sout_A, stepAt_apply V c X ids h ⟨n + 1, hn⟩ _ p, Cert.Tile.reset_apply, zero_add]
      dsimp only
      rw [h0]
      simp
    · have hprev := ih (Nat.lt_of_succ_lt hn) p
      have hdiv : n / 8 = (n + 1) / 8 := by omega
      have hmod : n % 8 + 1 = (n + 1) % 8 := by omega
      by_cases h1 : (n + 1) % 8 = 7
      · rw [outsAt1_C V c ⟨n + 1, hn⟩ h0 h1]
        dsimp only
        rw [sout_C, stepAt_apply V c X ids h ⟨n + 1, hn⟩ _ p]
        show ((outsAt1 (F := Ideal) V c n (Nat.lt_of_succ_lt hn)).2 : Vec Ideal S256x1 .f32) (ix2 p 0) + tileSum X ids ((n + 1) / 8) ((n + 1) % 8) p = _
        rw [hprev, hdiv, ← hmod]
        exact (Finset.sum_range_succ (fun j => tileSum X ids ((n + 1) / 8) j p) (n % 8 + 1)).symm
      · rw [outsAt1_B V c ⟨n + 1, hn⟩ h0 h1]
        dsimp only
        rw [sout_B, stepAt_apply V c X ids h ⟨n + 1, hn⟩ _ p]
        show ((outsAt1 (F := Ideal) V c n (Nat.lt_of_succ_lt hn)).2 : Vec Ideal S256x1 .f32) (ix2 p 0) + tileSum X ids ((n + 1) / 8) ((n + 1) % 8) p = _
        rw [hprev, hdiv, ← hmod]
        exact (Finset.sum_range_succ (fun j => tileSum X ids ((n + 1) / 8) j p) (n % 8 + 1)).symm

/-- Where `j = 7` the output's buffer holds the new accumulator. -/
theorem out_eq_acc (t : Fin cfg1.N) (h1 : t.val % 8 = 7) :
    (outsAt1 (F := Ideal) V c t.val t.isLt).1 = (outsAt1 (F := Ideal) V c t.val t.isLt).2 := by
  have h0 : ¬t.val % 8 = 0 := by omega
  rw [outsAt1_C V c t h0 h1]
  dsimp only
  rw [out_C, sout_C]

/-- A row's eight tile contributions are its sum over all 2048 columns. -/
theorem tiles_eq_row (i : ℕ) (hi : i < 8) (p : Fin 256) :
    ∑ j ∈ Finset.range 8, tileSum X ids i j p = ∑ c' : Fin 2048, Cert.Spec.bceAt X ids (rowAt i p) c' := by
  rw [← Cert.Regroup.sum_tiles (fun c' => Cert.Spec.bceAt X ids (rowAt i p) c'), Finset.sum_range]
  refine Finset.sum_congr rfl fun j _ => ?_
  unfold tileSum
  refine Finset.sum_congr rfl fun q _ => ?_
  refine congrArg (Cert.Spec.bceAt X ids (rowAt i p)) (Fin.ext ?_)
  rw [rowAt_val j.val j.isLt q]

/-- The result array's function: row `r` holds the loss's row sum. -/
def rowLoss : S2048x1.Idx → EReal := fun i => ∑ c' : Fin 2048, Cert.Spec.bceAt X ids ⟨(i 0).val, idx2_lt0 i⟩ c'

/-- What a writing point writes back is its block of that function. -/
theorem flushed1_5_eq (h : Entry V c X ids) (t : Fin cfg1.N) (hf : (cfg1.win 5).flush t = true) :
    (dat1 (F := Ideal) V c).flushed 5 t = ((cfg1.win 5).blk t).view.read (Elt Ideal) (rowLoss X ids) := by
  have h7 : t.val % 8 = 7 := (flush1_5 t).mp hf
  have hN : t.val < 64 := lt_of_lt_of_eq t.isLt (show cfg1.N = 64 from N_1)
  obtain ⟨-, -, -, -, -, -, -, -, -, -, e50, e51, -, -, -, -⟩ := idx_facts1 t
  show (cfg1.win 5).cut (grid1.coords t) ((dat1 (F := Ideal) V c).after 5 t) = _
  rw [after1_5, out_eq_acc V c t h7]
  funext y
  obtain ⟨p, z, rfl⟩ : ∃ (p : Fin 256) (z : Fin 1), y = ix2 p z := ⟨y 0, y 1, eq_ix2 y⟩
  obtain rfl : z = 0 := Subsingleton.elim _ _
  show ((outsAt1 (F := Ideal) V c t.val t.isLt).2 : Vec Ideal S256x1 .f32) (ix2 p 0) = rowLoss X ids (((cfg1.win 5).blk t).view.emb (ix2 p 0))
  rw [acc_eq V c X ids h t.val t.isLt p, h7, tiles_eq_row X ids (t.val / 8) (by omega) p]
  unfold rowLoss
  refine Finset.sum_congr rfl fun c' _ => ?_
  refine congrArg (fun r => Cert.Spec.bceAt X ids r c') (Fin.ext ?_)
  show (rowAt (t.val / 8) p).val = win1_5.index t (0 : Fin 2) * 256 + 1 * p.val
  rw [rowAt_val (t.val / 8) (by omega) p, e50]; omega

theorem mem_blk1_5 (t : Fin cfg1.N) (i : S2048x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v11).slice (win1_5.rect t)).set ↔ _
  rw [View.set_slice_whole, Rect.mem_set_unit]
  exact Iff.rfl

/-- Every row of the result is written: row `r` at the last point of tile row `r / 256`. -/
theorem covered1_5 (i : S2048x1.Idx) : ∃ t : Fin cfg1.N, (cfg1.win 5).flush t = true ∧ i ∈ ((cfg1.win 5).blk t).view.set := by
  have hi0 : (i 0).val < 2048 := idx2_lt0 i
  have hi1 : (i 1).val < 1 := idx2_lt1 i
  have hN : cfg1.N = 64 := N_1
  let t : Fin cfg1.N := ⟨8 * ((i 0).val / 256) + 7, by rw [hN]; omega⟩
  obtain ⟨-, -, -, -, -, -, -, -, -, -, e50, e51, -, -, -, -⟩ := idx_facts1 t
  have tv : t.val = 8 * ((i 0).val / 256) + 7 := rfl
  refine ⟨t, (flush1_5 t).mpr (by rw [tv]; omega), ?_⟩
  rw [mem_blk1_5]
  intro a
  match a with
  | ⟨0, _⟩ => show win1_5.index t (0 : Fin 2) * 256 ≤ (i 0).val ∧ (i 0).val < win1_5.index t (0 : Fin 2) * 256 + 256; rw [e50, tv]; omega
  | ⟨1, _⟩ => show win1_5.index t (1 : Fin 2) * 1 ≤ (i 1).val ∧ (i 1).val < win1_5.index t (1 : Fin 2) * 1 + 1; rw [e51]; omega

/-- The result array after the launch: every row at the loss's row sum. -/
theorem final1 (h : Entry V c X ids) (r : Fin 2048) :
    ((dat1 (F := Ideal) V c).arrAt 5 cfg1.N : S2048x1.Idx → EReal) (ix2 r (0 : Fin 1)) = ∑ c' : Fin 2048, Cert.Spec.bceAt X ids r c' := by
  rw [(dat1 (F := Ideal) V c).arrAt_eq_of_cover 5 (rowLoss X ids) (flushed1_5_eq V c X ids h) covered1_5]
  rfl

end Cert.KernelIdeal.Hand

end
-- ==== Proof.KI.Region0Value.lean ====
/-
  The value of the first launch at the ideal instance: what its two output arrays hold when it ends, entry by entry,
  as functions of the gathered matrix the launch finds. The narrowed copy is the matrix itself (a change of format is
  the identity on extended reals); the column of row norms holds, at row `r`, the square root of the sum over the 4096
  columns of the squares of the matrix's entries in that row.

  The road: what the body leaves in each staging buffer, read at an index (the store's payload through the whole-block
  rectangle); the input block at point `t` as rows 256·t … 256·t+255 of the matrix; what point `t` writes back as block
  `t` of one whole-array function; every row lies in the block of point `r / 256`; so the arrays end at those functions.
-/
import proofs.«102577_j3977139716295_2_alg».proof.Proof.KI.Region0
import proofs.«102577_j3977139716295_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen
open scoped BigOperators

/-! ## The body's payloads at an index -/

theorem hz0 : (![0, 0] : Fin 2 → Nat) = fun _ => 0 := funext fun a => by fin_cases a <;> rfl

/-- A vector of `a` entries viewed as an `a × 1` column reads, at `(i, u)`, the vector's entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The narrowed block is the input block: the store's payload is the loaded block changed of format, and on extended
    reals a change of format is the identity. -/
theorem out0_1_apply (x0 : Vec Ideal S256x4096 .f32) (y : S256x4096.Idx) : out0_1 (F := Ideal) x0 y = x0 y := by
  unfold out0_1
  rw [View.canon_unit_zero hz0]
  simp only [View.ld_unit_zero (S := S256x4096) hz0]
  unfold k0_pay3 k0_pay1
  rw [shapeCast_self]
  rfl

/-- The sum over a row of the block's squares, as the lane reduction computes it. -/
theorem rowsum_apply (v : FVec Ideal S256x4096 .f32) (hacc : (0x00000000#32 : BitVec 32) = 0x00000000#32) (p : Fin 256) :
    multiReduction (F := Ideal) .add [1] S256 v 0x00000000#32 reduces_S256x4096_S256 (.inl rfl) hacc (ix1 p)
      = ∑ d : Fin 4096, v (ix2 p d) := by
  refine (Ideal.multiReduction_add_single v 0x00000000#32 reduces_S256x4096_S256 (.inl rfl) hacc (ix1 p)).trans ?_
  refine Finset.sum_congr rfl fun d _ => congrArg v ?_
  funext a
  match a with
  | ⟨0, _⟩ => rfl
  | ⟨1, _⟩ => rfl

/-- The column of norms: at row `p`, the square root of the sum over the columns of the squares of the block's row `p`. -/
theorem out0_2_apply (x0 : Vec Ideal S256x4096 .f32) (p : Fin 256) :
    out0_2 (F := Ideal) x0 (ix2 p (0 : Fin 1)) = Ideal.sqrt (∑ d : Fin 4096, x0 (ix2 p d) * x0 (ix2 p d)) := by
  unfold out0_2
  rw [View.canon_unit_zero hz0]
  simp only [View.ld_unit_zero (S := S256x4096) hz0]
  unfold k0_pay2 k0_pay1
  rw [shapeCast_self]
  show Ideal.sqrt (shapeCast S256x1 _ shapeCasts_S256_S256x1 (ix2 p (0 : Fin 1))) = _
  refine congrArg Ideal.sqrt ?_
  refine (shapeCast_a_a1_apply _ shapeCasts_S256_S256x1 p 0).trans ?_
  exact rowsum_apply _ rfl p

/-! ## From blocks to the arrays -/

variable (V : (c : Dev nD) → (b : Ref sig .tc) → Buf (Elt Ideal) ((c : Thread nD τ).loc b))

/-- The three windows move together: at point `t` each one's block is block `(t, 0)` of its array, for each of the 8 points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t` is rows `256·t … 256·t + 255` of the matrix. -/
theorem iblk0_apply (c : Dev nD) (t : Fin cfg0.N) (p : Fin 256) (d : Fin 4096) (r : Fin 2048) (hr : r.val = 256 * t.val + p.val) :
    (iblk0 V c 0 t : Vec Ideal S256x4096 .f32) (ix2 p d) = (V c main_v6 : S2048x4096.Idx → EReal) (ix2 r d) := by
  obtain ⟨e0, e1, -⟩ := idx_facts0 t
  unfold iblk0
  rw [View.read_apply]
  show V c main_v6 _ = V c main_v6 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 4096 + 1 * d.val = d.val; rw [e1]; omega

/-- What point `t` writes back to the narrowed copy is block `t` of the matrix. -/
theorem flushed0_1_eq (c : Dev nD) (t : Fin cfg0.N) :
    (dat0 (F := Ideal) V c).flushed 1 t
      = ((cfg0.win 1).blk t).view.read (Elt Ideal) (fun i => (V c main_v6 : S2048x4096.Idx → EReal) i) := by
  show (cfg0.win 1).cut (grid0.coords t) ((dat0 V c).after 1 t) = _
  rw [after0_1]
  funext j
  obtain ⟨p, d, rfl⟩ : ∃ (p : Fin 256) (d : Fin 4096), j = ix2 p d := ⟨j 0, j 1, eq_ix2 j⟩
  obtain ⟨-, -, e2, e3, -⟩ := idx_facts0 t
  have ht : t.val < 8 := lt_of_lt_of_eq t.isLt N_0
  show out0_1 (iblk0 V c 0 t) (ix2 p d) = (V c main_v6 : S2048x4096.Idx → EReal) (((cfg0.win 1).blk t).view.emb (ix2 p d))
  refine (out0_1_apply (iblk0 V c 0 t) (ix2 p d)).trans ?_
  refine (iblk0_apply V c t p d ⟨256 * t.val + p.val, by omega⟩ rfl).trans ?_
  refine congrArg _ ?_
  funext a
  apply Fin.ext
  match a with
  | ⟨0, _⟩ => show 256 * t.val + p.val = win0_1.index t (0 : Fin 2) * 256 + 1 * p.val; rw [e2]; omega
  | ⟨1, _⟩ => show d.val = win0_1.index t (1 : Fin 2) * 4096 + 1 * d.val; rw [e3]; omega

/-- The column of row norms of a matrix, as one function of the column's index: entry `(r, 0)` is the norm of row `r`. -/
def normCol (X : S2048x4096.Idx → EReal) : S2048x1.Idx → EReal :=
  fun i => Cert.Spec.nrm X ⟨(i 0).val, idx2_lt0 i⟩

/-- What point `t` writes back to the column of norms is block `t` of the matrix's column of row norms: row `p` of the
    input block is row `256·t + p` of the matrix, entry by entry, so the two sums of squares are one sum. -/
theorem flushed0_2_eq (c : Dev nD) (t : Fin cfg0.N) :
    (dat0 (F := Ideal) V c).flushed 2 t
      = ((cfg0.win 2).blk t).view.read (Elt Ideal) (normCol (V c main_v6)) := by
  show (cfg0.win 2).cut (grid0.coords t) ((dat0 V c).after 2 t) = _
  rw [after0_2]
  funext j
  obtain ⟨p, u, rfl⟩ : ∃ (p : Fin 256) (u : Fin 1), j = ix2 p u := ⟨j 0, j 1, eq_ix2 j⟩
  obtain rfl : u = 0 := Subsingleton.elim _ _
  obtain ⟨-, -, -, -, e4, e5⟩ := idx_facts0 t
  have ht : t.val < 8 := lt_of_lt_of_eq t.isLt N_0
  show out0_2 (iblk0 V c 0 t) (ix2 p (0 : Fin 1))
    = normCol (V c main_v6) (((cfg0.win 2).blk t).view.emb (ix2 p (0 : Fin 1)))
  refine (out0_2_apply (iblk0 V c 0 t) p).trans ?_
  have hrow : ∀ d : Fin 4096, (iblk0 V c 0 t : Vec Ideal S256x4096 .f32) (ix2 p d)
      = (V c main_v6 : S2048x4096.Idx → EReal) (ix2 (⟨256 * t.val + p.val, by omega⟩ : Fin 2048) d) :=
    fun d => iblk0_apply V c t p d ⟨256 * t.val + p.val, by omega⟩ rfl
  refine (congrArg Ideal.sqrt (Finset.sum_congr rfl fun d _ => by rw [hrow d])).trans ?_
  show Cert.Spec.nrm (V c main_v6) ⟨256 * t.val + p.val, _⟩ = Cert.Spec.nrm (V c main_v6) ⟨_, _⟩
  refine congrArg (Cert.Spec.nrm (V c main_v6)) (Fin.ext ?_)
  show 256 * t.val + p.val = win0_2.index t (0 : Fin 2) * 256 + 1 * p.val
  rw [e4]; omega

/-- An index of the narrowed copy is in point `t`'s block iff each coordinate is in the block's range on its axis. -/
theorem mem_blk0_1 (t : Fin cfg0.N) (i : S2048x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v9_0).slice (win0_1.rect t)).set ↔ _
  rw [View.set_slice_whole, Rect.mem_set_unit]
  exact Iff.rfl

/-- An index of the column of norms is in point `t`'s block iff each coordinate is in the block's range on its axis. -/
theorem mem_blk0_2 (t : Fin cfg0.N) (i : S2048x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v9_1).slice (win0_2.rect t)).set ↔ _
  rw [View.set_slice_whole, Rect.mem_set_unit]
  exact Iff.rfl

/-- Every entry of the narrowed copy is written: row `r` lies in the block of point `r / 256`. -/
theorem covered0_1 (i : S2048x4096.Idx) :
    ∃ t : Fin cfg0.N, (cfg0.win 1).flush t = true ∧ i ∈ ((cfg0.win 1).blk t).view.set := by
  have hi0 : (i 0).val < 2048 := idx2_lt0 i
  have hi1 : (i 1).val < 4096 := idx2_lt1 i
  obtain ⟨t, ht⟩ : ∃ t : Fin cfg0.N, t.val = (i 0).val / 256 :=
    ⟨⟨(i 0).val / 256, lt_of_lt_of_eq (by omega : (i 0).val / 256 < 8) N_0.symm⟩, rfl⟩
  obtain ⟨-, -, e2, e3, -⟩ := idx_facts0 t
  refine ⟨t, flush0_1 t, ?_⟩
  rw [mem_blk0_1]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 4096 ≤ (i 1).val ∧ (i 1).val < win0_1.index t (1 : Fin 2) * 4096 + 4096
    rw [e3]; omega

/-- Every entry of the column of norms is written: row `r` lies in the block of point `r / 256`. -/
theorem covered0_2 (i : S2048x1.Idx) :
    ∃ t : Fin cfg0.N, (cfg0.win 2).flush t = true ∧ i ∈ ((cfg0.win 2).blk t).view.set := by
  have hi0 : (i 0).val < 2048 := idx2_lt0 i
  have hi1 : (i 1).val < 1 := idx2_lt1 i
  obtain ⟨t, ht⟩ : ∃ t : Fin cfg0.N, t.val = (i 0).val / 256 :=
    ⟨⟨(i 0).val / 256, lt_of_lt_of_eq (by omega : (i 0).val / 256 < 8) N_0.symm⟩, rfl⟩
  obtain ⟨-, -, -, -, e4, e5⟩ := idx_facts0 t
  refine ⟨t, flush0_2 t, ?_⟩
  rw [mem_blk0_2]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 1 ≤ (i 1).val ∧ (i 1).val < win0_2.index t (1 : Fin 2) * 1 + 1
    rw [e5]; omega

/-! ## The two arrays when the launch ends -/

/-- The narrowed copy IS the matrix, entry by entry. -/
theorem final0_1 (c : Dev nD) :
    ((dat0 (F := Ideal) V c).arrAt 1 cfg0.N : S2048x4096.Idx → EReal) = fun i => (V c main_v6 : S2048x4096.Idx → EReal) i :=
  (dat0 (F := Ideal) V c).arrAt_eq_of_cover 1 (fun i => (V c main_v6 : S2048x4096.Idx → EReal) i)
    (fun t _ => flushed0_1_eq V c t) covered0_1

/-- The column of norms holds, at row `r`, the norm of the matrix's row `r`. -/
theorem final0_2 (c : Dev nD) (r : Fin 2048) :
    ((dat0 (F := Ideal) V c).arrAt 2 cfg0.N : S2048x1.Idx → EReal) (ix2 r (0 : Fin 1)) = Cert.Spec.nrm (V c main_v6) r :=
  congrFun ((dat0 (F := Ideal) V c).arrAt_eq_of_cover 2 (normCol (V c main_v6))
    (fun t _ => flushed0_2_eq V c t) covered0_2) (ix2 r (0 : Fin 1))

end Cert.KernelIdeal.Hand

end
-- ==== Proof.KI.Glue.lean ====
/-
  The glue between the two launches' values, at the ideal instance. With `X` the gathered matrix (what the first stretch
  of host operations leaves in the gather's buffer) and `ids` the third argument: what the second launch finds in the
  five arrays it reads is `X`, the column and the row of `X`'s row norms, and the column and the row of the ids; the
  program's result is the loss of `X` and `ids` once the second launch's column holds the per-row sums; and `X` is the
  matrix the reference program gathers.
-/
import proofs.«102577_j3977139716295_2_alg».proof.Proof.KI.Run
import proofs.«102577_j3977139716295_2_alg».proof.Proof.KI.Region0Value
import proofs.«102577_j3977139716295_2_alg».proof.Proof.KI.Entry
import proofs.«102577_j3977139716295_2_alg».proof.Proof.Spec
import proofs.«102577_j3977139716295_2_alg».proof.Proof.Regroup
import proofs.«102577_j3977139716295_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg)

/-- The gathered matrix on core `c`: what the first stretch of host operations leaves in the gather's buffer. -/
abbrev X (c : Dev nD) : S2048x4096.Idx → EReal := V1 (F := Ideal) m ρ c main_v6
/-- The ids on core `c`: the third argument as launched. -/
abbrev ids (c : Dev nD) : S2048.Idx → BitVec 32 := m ((c : Thread nD τ).loc main_arg2)

/-! ## What the second launch finds -/

/-- The second stretch writes the row of norms only: the first launch's two outputs reach the second launch as left. -/
theorem W3_main_v9_0 (c : Dev nD) : W3 (F := Ideal) m ρ c (Proc.devRef .tc main_v9_0) = W2 m ρ c (Proc.devRef .tc main_v9_0) :=
  StableHlo.after_of_forall_not_mem (b := Proc.devRef .tc main_v9_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_main_v9_1 (c : Dev nD) : W3 (F := Ideal) m ρ c (Proc.devRef .tc main_v9_1) = W2 m ρ c (Proc.devRef .tc main_v9_1) :=
  StableHlo.after_of_forall_not_mem (b := Proc.devRef .tc main_v9_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Neither the first launch nor the second stretch writes the column or the row of ids. -/
theorem W3_main_v7 (c : Dev nD) : W3 (F := Ideal) m ρ c (Proc.devRef .tc main_v7) = W1 m ρ c (Proc.devRef .tc main_v7) :=
  (StableHlo.after_of_forall_not_mem (b := Proc.devRef .tc main_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v7 (by decide))
theorem W3_main_v8 (c : Dev nD) : W3 (F := Ideal) m ρ c (Proc.devRef .tc main_v8) = W1 m ρ c (Proc.devRef .tc main_v8) :=
  (StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v8 (by decide))

/-- The narrowed copy at the first launch's exit is the gathered matrix. -/
theorem W2_main_v9_0 (c : Dev nD) (i : S2048x4096.Idx) :
    (W2 (F := Ideal) m ρ c (Proc.devRef .tc main_v9_0) : S2048x4096.Idx → EReal) i = X m ρ c i :=
  congrFun ((W2_arr (F := Ideal) m ρ c 1).trans (final0_1 (V1 m ρ) c)) i

/-- The column of norms at the first launch's exit holds the gathered matrix's row norms. -/
theorem W2_main_v9_1 (c : Dev nD) (r : Fin 2048) :
    (W2 (F := Ideal) m ρ c (Proc.devRef .tc main_v9_1) : S2048x1.Idx → EReal) (ix2 r (0 : Fin 1)) = Cert.Spec.nrm (X m ρ c) r :=
  (congrFun (W2_arr (F := Ideal) m ρ c 2) (ix2 r (0 : Fin 1))).trans (final0_2 (V1 m ρ) c r)

/-- A `[2048, 1]` column transposed to a `[1, 2048]` row reads, at `(0, r)`, the column's entry `(r, 0)`. -/
theorem transpose_col_row_apply {α : Type} (x : S2048x1.Idx → α) (r : Fin 2048) :
    transpose S1x2048 [1, 0] x transposes_S2048x1_S1x2048_1_0 (ix2 (0 : Fin 1) r) = x (ix2 r (0 : Fin 1)) :=
  transpose_apply [1, 0] x transposes_S2048x1_S1x2048_1_0 (ix2 (0 : Fin 1) r) (ix2 r (0 : Fin 1)) (fun b => match b with
    | ⟨0, _⟩ => rfl
    | ⟨1, _⟩ => rfl)

/-- What the second launch finds in the arrays it reads: the gathered matrix, its row norms as a column and as a row,
    the ids as a column and as a row. -/
theorem entry3 (c : Dev nD) : Entry (V3 (F := Ideal) m ρ) c (X m ρ c) (ids m c) where
  hX r d := (congrFun (W3_main_v9_0 m ρ c) (ix2 r d)).trans (W2_main_v9_0 m ρ c (ix2 r d))
  hn r := (congrFun (W3_main_v9_1 m ρ c) (ix2 r (0 : Fin 1))).trans (W2_main_v9_1 m ρ c r)
  hnr r := by
    show (W3 (F := Ideal) m ρ c (Proc.devRef .tc main_v10) : S1x2048.Idx → EReal) (ix2 (0 : Fin 1) r) = _
    rw [W3_main_v10]
    exact (transpose_col_row_apply _ r).trans (W2_main_v9_1 m ρ c r)
  hid r := by
    show (W3 (F := Ideal) m ρ c (Proc.devRef .tc main_v7) : S2048x1.Idx → BitVec 32) (ix2 r (0 : Fin 1)) = _
    rw [W3_main_v7, W1_main_v7]
    exact shapeCast_a_a1_apply (ids m c) shapeCasts_S2048_S2048x1 r 0
  hidr r := by
    show (W3 (F := Ideal) m ρ c (Proc.devRef .tc main_v8) : S1x2048.Idx → BitVec 32) (ix2 (0 : Fin 1) r) = _
    rw [W3_main_v8, W1_main_v8]
    exact (transpose_col_row_apply _ r).trans (shapeCast_a_a1_apply (ids m c) shapeCasts_S2048_S2048x1 r 0)

/-! ## The program's result -/

/-- Once the second launch's column holds, at row `r`, the sum over the columns of the per-pair losses of row `r`, the
    program's result is the loss: the last stretch sums the column from zero and divides by the number of pairs. -/
theorem tail_value (c : Dev nD)
    (hrows : ∀ r : Fin 2048, (W4 (F := Ideal) m ρ c (Proc.devRef .tc main_v11) : S2048x1.Idx → EReal) (ix2 r (0 : Fin 1))
      = ∑ c' : Fin 2048, Cert.Spec.bceAt (X m ρ c) (ids m c) r c') :
    W5 (F := Ideal) m ρ c (Proc.devRef .tc main_v13) = fun _ => Cert.Spec.loss (X m ρ c) (ids m c) := by
  rw [W5_main_v13]
  funext i
  generalize (W4 (F := Ideal) m ρ c (Proc.devRef .tc main_v11) : S2048x1.Idx → EReal) = y at hrows ⊢
  show Ideal.div (Host.reduceAdd y (constant (F := Ideal) S_ .f32 0x00000000#32) reducesTo_S2048x1_S_d0_1 h_S_ i)
    (Ideal.ofBits .f32 0x4A800000#32) = _
  rw [Cert.Spec.loss_def]
  refine congrArg (Ideal.div · _) ?_
  simp only [Host.reduceAdd, Ideal.hostReduceAdd_def]
  rw [Ideal.hostReduceAdd_total reducesTo_S2048x1_S_d0_1 (fun b => b.elim0) y _ i]
  show Ideal.ofBits .f32 0x00000000#32 + _ = _
  rw [Cert.Regroup.ofBits_zero, zero_add, sum_idx2]
  refine Finset.sum_congr rfl fun r _ => ?_
  rw [Fin.sum_univ_one]
  exact hrows r

/-! ## The gathered matrix is the reference's -/

/-- The gathered matrix is the one the reference program gathers: the same rows of the first argument at the same
    indices (the second argument's, a negative one counted from the end). -/
theorem X_eq_ref (c : Dev nD) :
    X m ρ c = Cert.ReferenceIdeal.Read.val_main_v6 (F := Ideal) (m ((c : Thread nD τ).loc main_arg0)) (m ((c : Thread nD τ).loc main_arg1)) := by
  show W1 (F := Ideal) m ρ c (Proc.devRef .tc main_v6) = _
  rw [W1_main_v6]
  rfl

end Cert.KernelIdeal.Hand

end
-- ==== Proof.RefSide.lean ====
import proofs.«102577_j3977139716295_2_alg».proof.Proof.Gen.ReferenceIdeal.Read
import proofs.«102577_j3977139716295_2_alg».proof.Proof.Spec
import Idealize.ShloMosaic.PureOps.Ideal.Laws

/-!
# The reference computes the specification

The reference program gathers 2048 rows `X` of the data, then computes row norms, the Gram matrix
`X Xᵀ`, the clamped cosine similarities, the same-word targets and the mean binary cross-entropy.
Read one stage at a time at an index given by its coordinates, every stage after the gather is the
corresponding function of `Cert.Spec` of the gathered rows; the final scalar is `Cert.Spec.loss`.
The gathered rows stay one opaque array throughout.
-/

noncomputable section

open scoped BigOperators

namespace Cert.RefSide

open Cert.ReferenceIdeal Cert.ReferenceIdeal.Gen Cert.ReferenceIdeal.Read Idealize.ShloMosaic
  Idealize.ShloMosaic.ValueIdx

variable (x0 : (⟨S4096x4096, .f32⟩ : BufTy).Contents (Elt Ideal))
  (x1 x2 : (⟨S2048, .i32⟩ : BufTy).Contents (Elt Ideal))

/-! ## The composed index maps at coordinates -/

theorem idx8 (r : Fin 2048) (k : Fin 4096) : idx_main_v8 (ix1 r) k = ix2 r k :=
  funext fun a => Fin.ext (by match a with | ⟨0, _⟩ => rfl | ⟨1, _⟩ => rfl)

theorem lidx11 (r c : Fin 2048) (k : Fin 4096) : lidx_main_v11 (ix2 r c) k = ix2 r k :=
  funext fun a => Fin.ext (by match a with | ⟨0, _⟩ => rfl | ⟨1, _⟩ => rfl)

theorem ridx11 (r c : Fin 2048) (k : Fin 4096) : idx_main_v10 (ridx_main_v11 (ix2 r c) k) = ix2 c k :=
  funext fun a => Fin.ext (by match a with | ⟨0, _⟩ => rfl | ⟨1, _⟩ => rfl)

theorem idx_row (r c : Fin 2048) : idx_main_v12 (idx_main_v14 (ix2 r c)) = ix1 r :=
  funext fun a => Fin.ext (by match a with | ⟨0, _⟩ => rfl)

theorem idx_col (r c : Fin 2048) : idx_main_v13 (idx_main_v15 (ix2 r c)) = ix1 c :=
  funext fun a => Fin.ext (by match a with | ⟨0, _⟩ => rfl)

theorem idx_row_id (r c : Fin 2048) : idx_main_v20 (idx_main_v22 (ix2 r c)) = ix1 r :=
  funext fun a => Fin.ext (by match a with | ⟨0, _⟩ => rfl)

theorem idx_col_id (r c : Fin 2048) : idx_main_v21 (idx_main_v23 (ix2 r c)) = ix1 c :=
  funext fun a => Fin.ext (by match a with | ⟨0, _⟩ => rfl)

/-! ## The stages at coordinates -/

/-- The row sum of squares is `Spec.sqn` of the gathered rows. -/
theorem sqn_at (r : Fin 2048) :
    val_main_v8 (F := Ideal) x0 x1 (ix1 r) = Cert.Spec.sqn (val_main_v6 (F := Ideal) x0 x1) r := by
  rw [val_main_v8_apply, val_main_cst_apply, Ideal.ofBits_def, Ideal.ofBits_zero_f32, zero_add]
  refine Finset.sum_congr rfl fun k _ => ?_
  rw [val_main_v7_apply, idx8]
  rfl

/-- The row norm is `Spec.nrm`. -/
theorem nrm_at (r : Fin 2048) :
    val_main_v9 (F := Ideal) x0 x1 (ix1 r) = Cert.Spec.nrm (val_main_v6 (F := Ideal) x0 x1) r := by
  rw [val_main_v9_apply, sqn_at]
  rfl

/-- The Gram matrix entry is `Spec.gram`. -/
theorem gram_at (r c : Fin 2048) :
    val_main_v11 (F := Ideal) x0 x1 (ix2 r c) = Cert.Spec.gram (val_main_v6 (F := Ideal) x0 x1) r c := by
  rw [val_main_v11_apply]
  refine Finset.sum_congr rfl fun k _ => ?_
  rw [val_main_v10_apply, lidx11, ridx11]

/-- The cosine similarity is `Spec.sim`. -/
theorem sim_at (r c : Fin 2048) :
    val_main_v19 (F := Ideal) x0 x1 (ix2 r c) = Cert.Spec.sim (val_main_v6 (F := Ideal) x0 x1) r c := by
  rw [val_main_v19_apply, val_main_v18_apply, val_main_v16_apply, val_main_v14_apply, val_main_v12_apply,
    val_main_v15_apply, val_main_v13_apply, val_main_v17_apply, val_main_cst_1_apply, gram_at, idx_row, idx_col,
    nrm_at, nrm_at]
  rfl

/-- The target is `Spec.tgt`. -/
theorem tgt_at (r c : Fin 2048) :
    val_main_v25 (F := Ideal) x2 (ix2 r c) = Cert.Spec.tgt x2 r c := by
  rw [val_main_v25_apply, val_main_v24_apply, val_main_v22_apply, val_main_v20_apply, val_main_v23_apply,
    val_main_v21_apply, idx_row_id, idx_col_id]
  rfl

/-- The per-pair loss is `Spec.bceAt`. -/
theorem bce_at (r c : Fin 2048) :
    val_main_v34 (F := Ideal) x0 x1 x2 (ix2 r c)
      = Cert.Spec.bceAt (val_main_v6 (F := Ideal) x0 x1) x2 r c := by
  rw [val_main_v34_apply, val_main_v29_apply, val_main_v27_apply, val_main_v28_apply, val_main_v33_apply,
    val_main_v32_apply, val_main_v31_apply, val_main_v30_apply, val_main_v26_apply, val_main_cst_2_apply,
    sim_at, tgt_at, Ideal.ofBits_def, Ideal.ofBits_zero_f32]
  rfl

/-- **The reference computes the specification**: its result, as a function of the arguments, is the
    loss of the gathered rows and the words. -/
theorem ref_eq :
    val_main_v36 (F := Ideal) x0 x1 x2
      = fun _ => Cert.Spec.loss (val_main_v6 (F := Ideal) x0 x1) x2 := by
  funext i
  rw [val_main_v36_apply, val_main_v35_apply, val_main_cst_3_apply, val_main_cst_4_apply, Ideal.ofBits_def,
    Ideal.ofBits_def, Ideal.ofBits_zero_f32, zero_add, sum_idx2]
  simp only [bce_at]
  rfl

end Cert.RefSide

end
-- ==== Proof.lean ====
/-
  The proof of `Cert.Claim`: a cosine-similarity Gram matrix of 2048 gathered rows followed by the binary cross-entropy
  with logits, mean-reduced — two kernel launches among host operations — against the plain jnp formula, over the
  extended reals.

  The kernel gathers the rows `X`; its first launch writes a narrowed copy of `X` (the same numbers at the ideal instance)
  and the column of row norms `n r = sqrt (∑ d, X r d ²)`; its second launch, on an 8 × 8 grid of 256 × 256 tiles, computes
  for each tile the entries `s = (∑ d, X r d · X c d) / max (n r · n c) ε`, `bce = max s 0 − s · [id r = id c] + log1p (exp (−|s|))`,
  sums each tile's rows, and accumulates the eight tiles of a row of tiles in a carried 256 × 1 buffer that it writes out
  after the eighth; the host then sums the 2048 row sums and divides by 2048². The reference computes the same entries
  for the whole 2048 × 2048 matrix, sums them all and divides by 2048². The two differ only in how one finite sum is
  grouped, and addition on the extended reals is commutative and associative without any finiteness: the precondition is
  never opened.

  The three frames: each kernel program's frame is its run through the two launches read at the argument arrays; the
  reference's is its run with the result dropped. The idealization rewrote nothing, so `preserves` is trivial.
-/
import proofs.«102577_j3977139716295_2_alg».proof.Defs
import proofs.«102577_j3977139716295_2_alg».proof.Proof.Gen.Kernel
import proofs.«102577_j3977139716295_2_alg».proof.Proof.Gen.KernelIdeal
import proofs.«102577_j3977139716295_2_alg».proof.Proof.Gen.ReferenceIdeal
import proofs.«102577_j3977139716295_2_alg».proof.Proof.Gen.Pre_finite_inputs
import proofs.«102577_j3977139716295_2_alg».proof.Proof.K.Run
import proofs.«102577_j3977139716295_2_alg».proof.Proof.KI.Run
import proofs.«102577_j3977139716295_2_alg».proof.Proof.KI.R1Value
import proofs.«102577_j3977139716295_2_alg».proof.Proof.KI.Glue
import proofs.«102577_j3977139716295_2_alg».proof.Proof.RefSide

noncomputable section

namespace Cert.Proof

open Idealize.ShloMosaic Idealize.ShloMosaic.TcCoe Idealize.SL.Sem Idealize.ShloMosaic.ValueIdx

/-- The word-level kernel runs, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both programs end at the loss of the gathered matrix and the ids. -/
theorem algebraic : Cert.algebraic_KernelIdeal_ReferenceIdeal := by
  intro m ρ m' ρ' _ hagree
  refine ⟨fun c => fun _ => Cert.Spec.loss (X m ρ c) (ids m c), ?_, ?_⟩
  · refine (θ_run Cert.KernelIdeal.defs _ _).mono (fun r h c => ⟨?_, ?_, ?_, ?_⟩) (Cert.KernelIdeal.Hand.run_all (F := Ideal) m ρ)
    · refine (h c _ (mem_uc main_v13 (by decide))).trans ?_
      exact tail_value m ρ c fun r =>
        (congrFun (W4_arr m ρ c 5) (ix2 r (0 : Fin 1))).trans (final1 (V3 (F := Ideal) m ρ) c _ _ (entry3 m ρ c) r)
    · exact (h c _ (mem_uc main_arg0 (by decide))).trans (W5_main_arg0 m ρ c)
    · exact (h c _ (mem_uc main_arg1 (by decide))).trans (W5_main_arg1 m ρ c)
    · exact (h c _ (mem_uc main_arg2 (by decide))).trans (W5_main_arg2 m ρ c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v36_eq, Cert.RefSide.ref_eq, (hagree c).1, (hagree c).2.1, (hagree c).2.2,
      ← X_eq_ref m ρ c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
